-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x256 .f32) (main_arg3 : FVec F S256 .f32) (main_arg4 : FVec F S256x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x256 : Shape := ⟨2, ![50000, 256]⟩
abbrev S2000x128 : Shape := ⟨2, ![2000, 128]⟩
abbrev S2000x1 : Shape := ⟨2, ![2000, 1]⟩
abbrev S2000x256 : Shape := ⟨2, ![2000, 256]⟩
abbrev S800000x256 : Shape := ⟨2, ![800000, 256]⟩
abbrev S1x256 : Shape := ⟨2, ![1, 256]⟩
abbrev S800000x128 : Shape := ⟨2, ![800000, 128]⟩
abbrev S1x128 : Shape := ⟨2, ![1, 128]⟩

abbrev nBuf : Space → Nat
  | .hbm => 55
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000, .f32⟩
  | .hbm, ⟨20, _⟩ => ⟨S50000x1, .f32⟩
  | .hbm, ⟨21, _⟩ => ⟨S50000x128, .bf16⟩
  | .hbm, ⟨22, _⟩ => ⟨S128x256, .bf16⟩
  | .hbm, ⟨23, _⟩ => ⟨S50000x256, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x256, .f32⟩
  | .hbm, ⟨33, _⟩ => ⟨S_, .f32⟩
  | .hbm, ⟨34, _⟩ => ⟨S50000x256, .f32⟩
  | .hbm, ⟨35, _⟩ => ⟨S800000x1, .i32⟩
  | .hbm, ⟨36, _⟩ => ⟨S50000x256, .f32⟩
  | .hbm, ⟨37, _⟩ => ⟨S1x256, .f32⟩
  | .hbm, ⟨38, _⟩ => ⟨S256x128, .bf16⟩
  | .hbm, ⟨39, _⟩ => ⟨S50000x128, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .f32⟩
  | .hbm, ⟨49, _⟩ => ⟨S_, .f32⟩
  | .hbm, ⟨50, _⟩ => ⟨S50000x128, .f32⟩
  | .hbm, ⟨51, _⟩ => ⟨S800000x1, .i32⟩
  | .hbm, ⟨52, _⟩ => ⟨S50000x128, .f32⟩
  | .hbm, ⟨53, _⟩ => ⟨S1x128, .f32⟩
  | .hbm, ⟨54, _⟩ => ⟨S50000x128, .f32⟩
  | .local _ .vmem, ⟨0, _⟩ => ⟨S2000x128, .bf16⟩
  | .local _ .vmem, ⟨1, _⟩ => ⟨S2000x128, .bf16⟩
  | .local _ .vmem, ⟨2, _⟩ => ⟨S128x256, .bf16⟩
  | .local _ .vmem, ⟨3, _⟩ => ⟨S2000x1, .f32⟩
  | .local _ .vmem, ⟨4, _⟩ => ⟨S2000x1, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x1, .f32⟩
  | .local _ .vmem, ⟨12, _⟩ => ⟨S2000x1, .f32⟩
  | .local _ .vmem, ⟨13, _⟩ => ⟨S1x256, .f32⟩
  | .local _ .vmem, ⟨14, _⟩ => ⟨S256x128, .bf16⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x1, .f32⟩
  | .local _ .vmem, ⟨22, _⟩ => ⟨S2000x1, .f32⟩
  | .local _ .vmem, ⟨23, _⟩ => ⟨S1x128, .f32⟩
  | .local _ .vmem, ⟨24, _⟩ => ⟨S2000x128, .f32⟩
  | .local _ .vmem, ⟨25, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S2000x1_S2000x128 : S2000x1.Broadcasts S2000x128
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S800000x1_S800000_n_0_0_1_wf : ScatterDims.WF S50000 S800000x1 S800000 [] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .bf16 = 32 ∨ (Rect.block (s := S50000x128) S2000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .bf16 = 32 ∨ (Rect.block (s := S256x128) S256x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_v12) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S2000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S50000x256 : Shape := ⟨2, ![50000, 256]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S50000x1 : Shape := ⟨2, ![50000, 1]⟩
abbrev S1x256 : Shape := ⟨2, ![1, 256]⟩
abbrev S800000x128 : Shape := ⟨2, ![800000, 128]⟩
abbrev S1x128 : Shape := ⟨2, ![1, 128]⟩

abbrev nBuf : Space → Nat
  | .hbm => 121
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x256, .f32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S800000, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x256, .f32⟩
  | .hbm, ⟨49, _⟩ => ⟨S800000x1, .f32⟩
  | .hbm, ⟨50, _⟩ => ⟨S800000x256, .f32⟩
  | .hbm, ⟨51, _⟩ => ⟨S800000x256, .f32⟩
  | .hbm, ⟨52, _⟩ => ⟨S_, .f32⟩
  | .hbm, ⟨53, _⟩ => ⟨S50000x256, .f32⟩
  | .hbm, ⟨54, _⟩ => ⟨S800000x1, .i32⟩
  | .hbm, ⟨55, _⟩ => ⟨S50000x256, .f32⟩
  | .hbm, ⟨56, _⟩ => ⟨S50000, .f32⟩
  | .hbm, ⟨57, _⟩ => ⟨S50000x1, .f32⟩
  | .hbm, ⟨58, _⟩ => ⟨S50000x256, .f32⟩
  | .hbm, ⟨59, _⟩ => ⟨S50000x256, .f32⟩
  | .hbm, ⟨60, _⟩ => ⟨S50000x256, .f32⟩
  | .hbm, ⟨61, _⟩ => ⟨S1x256, .f32⟩
  | .hbm, ⟨62, _⟩ => ⟨S50000x256, .f32⟩
  | .hbm, ⟨63, _⟩ => ⟨S50000x256, .f32⟩
  | .hbm, ⟨64, _⟩ => ⟨S_, .f32⟩
  | .hbm, ⟨65, _⟩ => ⟨S50000x256, .f32⟩
  | .hbm, ⟨66, _⟩ => ⟨S50000x256, .f32⟩
  | .hbm, ⟨67, _⟩ => ⟨S50000x128, .f32⟩
  | .hbm, ⟨68, _⟩ => ⟨S_, .f32⟩
  | .hbm, ⟨69, _⟩ => ⟨S800000, .f32⟩
  | .hbm, ⟨70, _⟩ => ⟨S_, .f32⟩
  | .hbm, ⟨71, _⟩ => ⟨S50000, .f32⟩
  | .hbm, ⟨72, _⟩ => ⟨S800000x1, .i32⟩
  | .hbm, ⟨73, _⟩ => ⟨S50000, .f32⟩
  | .hbm, ⟨74, _⟩ => ⟨S_, .f32⟩
  | .hbm, ⟨75, _⟩ => ⟨S50000, .f32⟩
  | .hbm, ⟨76, _⟩ => ⟨S50000, .f32⟩
  | .hbm, ⟨77, _⟩ => ⟨S50000, .f32⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S_, .i32⟩
  | .hbm, ⟨82, _⟩ => ⟨S800000, .i32⟩
  | .hbm, ⟨83, _⟩ => ⟨S800000, .i32⟩
  | .hbm, ⟨84, _⟩ => ⟨S800000, .i32⟩
  | .hbm, ⟨85, _⟩ => ⟨S800000x1, .i32⟩
  | .hbm, ⟨86, _⟩ => ⟨S800000, .f32⟩
  | .hbm, ⟨87, _⟩ => ⟨S_, .i32⟩
  | .hbm, ⟨88, _⟩ => ⟨S800000, .i32⟩
  | .hbm, ⟨89, _⟩ => ⟨S800000, .i1⟩
  | .hbm, ⟨90, _⟩ => ⟨S_, .i32⟩
  | .hbm, ⟨91, _⟩ => ⟨S800000, .i32⟩
  | .hbm, ⟨92, _⟩ => ⟨S800000, .i32⟩
  | .hbm, ⟨93, _⟩ => ⟨S800000, .i32⟩
  | .hbm, ⟨94, _⟩ => ⟨S800000x1, .i32⟩
  | .hbm, ⟨95, _⟩ => ⟨S800000, .f32⟩
  | .hbm, ⟨96, _⟩ => ⟨S800000, .f32⟩
  | .hbm, ⟨97, _⟩ => ⟨S_, .i32⟩
  | .hbm, ⟨98, _⟩ => ⟨S800000, .i32⟩
  | .hbm, ⟨99, _⟩ => ⟨S800000, .i1⟩
  | .hbm, ⟨100, _⟩ => ⟨S_, .i32⟩
  | .hbm, ⟨101, _⟩ => ⟨S800000, .i32⟩
  | .hbm, ⟨102, _⟩ => ⟨S800000, .i32⟩
  | .hbm, ⟨103, _⟩ => ⟨S800000, .i32⟩
  | .hbm, ⟨104, _⟩ => ⟨S800000x1, .i32⟩
  | .hbm, ⟨105, _⟩ => ⟨S800000x128, .f32⟩
  | .hbm, ⟨106, _⟩ => ⟨S800000x1, .f32⟩
  | .hbm, ⟨107, _⟩ => ⟨S800000x128, .f32⟩
  | .hbm, ⟨108, _⟩ => ⟨S800000x128, .f32⟩
  | .hbm, ⟨109, _⟩ => ⟨S_, .f32⟩
  | .hbm, ⟨110, _⟩ => ⟨S50000x128, .f32⟩
  | .hbm, ⟨111, _⟩ => ⟨S800000x1, .i32⟩
  | .hbm, ⟨112, _⟩ => ⟨S50000x128, .f32⟩
  | .hbm, ⟨113, _⟩ => ⟨S50000, .f32⟩
  | .hbm, ⟨114, _⟩ => ⟨S50000x1, .f32⟩
  | .hbm, ⟨115, _⟩ => ⟨S50000x128, .f32⟩
  | .hbm, ⟨116, _⟩ => ⟨S50000x128, .f32⟩
  | .hbm, ⟨117, _⟩ => ⟨S50000x128, .f32⟩
  | .hbm, ⟨118, _⟩ => ⟨S1x128, .f32⟩
  | .hbm, ⟨119, _⟩ => ⟨S50000x128, .f32⟩
  | .hbm, ⟨120, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x256_S50000x256_1_0_0_1_n_n_wf : DotDims.WF S50000x128 S128x256 S50000x256 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KernelRun.lean ====
/-
  The idealized kernel's run with its result named.

  @main is three pallas_call regions among stretches of host operations.  The generated frame certificate
  already folds the buffer contents through the six segments — `W1` after the first stretch, `W2` after region 0
  (its output array at what the pipeline's write-backs leave), … , `W6` after region 2 — and proves that every
  weakly fair execution terminates with every unscoped buffer at `W6`.  Its stated post keeps only the argument
  arrays.  Here the same run is stated with one more conjunct: the result buffer `main_v39` ends at
  `W6 … main_v39`, read off the same last thread state.
-/
import proofs.«124116_j50491635531994_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v39) = W6 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v39 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Named

end
-- ==== Proof.LibRowIndex.lean ====
/-
  Indexing the rows of a matrix by a column of row numbers, on the host: which operand row a gathered element reads,
  and where a scattered row lands.

  `x[idx]` of a matrix `x : [N, D]` (or of a vector `x : [N]`) at a column `idx : [E, 1]` of row numbers is a
  `gather` whose start index on the row axis is the row number read SIGNED and CLAMPED into `[0, N − 1]`
  (`rows_operandIdx_row`, `vec_operandIdx`): element `(e, c)` of the result reads row `clamp idx[e]`.
  A row-wise `scatter` of `[E, D]` updates into `[N, D]` at the same kind of column is NOT clamped: update row `e`
  lands on row `n` only if the row number read signed IS `n` (`rowScatter_lands`); any other row number drops it.
-/
import Idealize.ShloMosaic.Lib.ValueIdx

noncomputable section

namespace Idealize.ShloMosaic.RowIndex

open Idealize.ShloMosaic Idealize.ShloMosaic.ValueIdx

/-- Entry `e` of a column `[E, 1]`. -/
abbrev atRow {E : Nat} (e : Fin E) : (⟨2, ![E, 1]⟩ : Shape).Idx := ix2 e (⟨0, Nat.one_pos⟩ : Fin 1)

variable (N D E : Nat)

/-! ## Whole rows of a matrix gathered at a column of row numbers -/

/-- The dimension numbers of `x[idx]` for `x : [N, D]`, `idx : [E, 1]`: the row axis collapsed and indexed, the
    column axis a full-width offset axis. -/
abbrev rowsDims (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Result element `j = (e, c)` reads operand row `clamp idx[e]`. -/
theorem rows_operandIdx_row {w : Nat}
    (wf : GatherDims.WF ⟨2, ![N, D]⟩ ⟨2, ![E, 1]⟩ ⟨2, ![E, D]⟩ [1] [0] [] [0] [] 1 ![1, D])
    (idx : IVec ⟨2, ![E, 1]⟩ w) (j : (⟨2, ![E, D]⟩ : Shape).Idx) :
    ((rowsDims N D E wf).operandIdx j idx 0).val = min (idx (atRow ⟨(j 0).val, idx2_lt0 j⟩)).toInt.toNat (N - 1) := by
  show (rowsDims N D E wf).start j idx 0 + (rowsDims N D E wf).batchCoord j 0 + (rowsDims N D E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsDims N D E wf).startIndexMap from List.mem_singleton.mpr rfl)]
  have hsi : (rowsDims N D E wf).siIdx j ⟨List.idxOf (0 : Fin 2) (rowsDims N D E wf).startIndexMap,
      List.idxOf_lt_length_iff.2 (List.mem_singleton.mpr rfl)⟩ = atRow ⟨(j 0).val, idx2_lt0 j⟩ := by
    funext b; refine Fin.ext ?_
    match b with
    | ⟨0, _⟩ => rfl
    | ⟨1, _⟩ => rfl
  rw [hsi]
  rfl

/-! ## Entries of a vector gathered at a column of positions -/

/-- The dimension numbers of `x[idx]` for `x : [N]`, `idx : [E, 1]`. -/
abbrev vecDims (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result element `e` reads operand entry `clamp idx[e]`. -/
theorem vec_operandIdx {w : Nat} (wf : GatherDims.WF ⟨1, ![N]⟩ ⟨2, ![E, 1]⟩ ⟨1, ![E]⟩ [] [0] [] [0] [] 1 ![1])
    (idx : IVec ⟨2, ![E, 1]⟩ w) (e : (⟨1, ![E]⟩ : Shape).Idx) :
    ((vecDims N E wf).operandIdx e idx 0).val = min (idx (atRow ⟨(e 0).val, (e 0).isLt⟩)).toInt.toNat (N - 1) := by
  show (vecDims N E wf).start e idx 0 + (vecDims N E wf).batchCoord e 0 + (vecDims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx e ⟨List.idxOf (0 : Fin 1) (vecDims N E wf).startIndexMap,
      List.idxOf_lt_length_iff.2 (List.mem_singleton.mpr rfl)⟩ = atRow ⟨(e 0).val, (e 0).isLt⟩ := by
    funext b; refine Fin.ext ?_
    match b with
    | ⟨0, _⟩ => rfl
    | ⟨1, _⟩ => rfl
  rw [hsi]
  rfl

/-! ## Rows scattered at a column of row numbers -/

/-- The dimension numbers of a row-wise scatter of `[E, D]` updates into `[N, D]` at `idx : [E, 1]`. -/
abbrev rowScatter (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update element `j = (e, c)` that lands on `i = (n, c')` has row number `idx[e]`, read signed, equal to `n`. -/
theorem rowScatter_lands {w : Nat} (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx)
    (h : (rowScatter N D E wf).resultIdx? j idx = some i) :
    (idx (atRow ⟨(j 0).val, idx2_lt0 j⟩)).toInt = ((i 0).val : Int) := by
  have hs : (rowScatter N D E wf).start j idx 0 = (idx (atRow ⟨(j 0).val, idx2_lt0 j⟩)).toInt := by
    unfold ScatterDims.start
    rw [dif_pos (show (0 : Fin 2) ∈ (rowScatter N D E wf).scatterDimsToOperandDims from List.mem_singleton.mpr rfl)]
    have hsi : (rowScatter N D E wf).siIdx j ⟨List.idxOf (0 : Fin 2) (rowScatter N D E wf).scatterDimsToOperandDims,
        List.idxOf_lt_length_iff.2 (List.mem_singleton.mpr rfl)⟩ = atRow ⟨(j 0).val, idx2_lt0 j⟩ := by
      funext b; refine Fin.ext ?_
      match b with
      | ⟨0, _⟩ => rfl
      | ⟨1, _⟩ => rfl
    rw [hsi]
  have hw : (rowScatter N D E wf).window j 0 = 0 := by
    have hk : (0 : Fin 2) ∉ (rowScatter N D E wf).sKept := by
      intro hmem
      have h2 : (0 : Fin 2) ∈ (List.finRange 2).filter (· ∉ ([0] : List (Fin 2))) := hmem
      simp at h2
    unfold ScatterDims.window
    rw [dif_neg hk]
  unfold ScatterDims.resultIdx? at h
  split at h
  · rename_i hb
    have h0 : ((rowScatter N D E wf).start j idx 0 + ((rowScatter N D E wf).window j 0 : Int)).toNat = (i 0).val :=
      congrArg (fun f => (f 0).val) (Option.some.inj h)
    have h1 := (hb 0).1
    rw [hs, hw] at h0 h1
    omega
  · exact absurd h (by simp)

/-! ## A row number already in range -/

/-- A row number that reads signed as a natural `n` below `N` is left alone by wrapping (a negative number gets an offset
    added) and by clamping into `[0, N − 1]`: it is not negative, and it is in range. -/
theorem wrap_clamp_of_toInt_eq {N : Nat} (c off : BitVec 32) (n : Nat) (hn : n < N) (hc : c.toInt = (n : Int)) :
    min (Scalar.select (IntOp.cmpi .slt c 0#32) (IntOp.addi c off) c).toInt.toNat (N - 1) = n := by
  have hlt : ¬ (c.toInt < (0#32 : BitVec 32).toInt) := by
    rw [hc]
    simp
  have hcmp : IntOp.cmpi .slt c 0#32 = 0#1 := by
    show BitVec.ofBool (c.slt 0#32) = 0#1
    rw [BitVec.slt, decide_eq_false hlt]
    rfl
  rw [hcmp]
  show min c.toInt.toNat (N - 1) = n
  rw [hc, Int.toNat_natCast]
  omega

end Idealize.ShloMosaic.RowIndex
-- ==== Proof.LibHostColumns.lean ====
/-
  Host forms of a keepdims reduction, read at coordinates. A reduction over the columns of an `[a, b]` array leaves one
  value per row; the index of row `p` with column `k` put back is `(p, k)`. The host lays a per-row value back against
  the rows by two `broadcast_in_dim`s: `[a]` to the column `[a, 1]` (operand axis 0 on result axis 0), then the column
  to `[a, b]` (operand axes on the same result axes, the unit axis repeated). At `(p, c)` the result is the value of
  row `p`.
-/
import Idealize.ShloMosaic.Lib.ValueIdx
import Idealize.ShloMosaic.Lib.Pipeline.Value
import Idealize.ShloMosaic.PureOps.Reduce

namespace Idealize.ShloMosaic.ValueIdx

variable {α : Type}

/-- The reduced index `p` of a reduction over the columns, with column `k` put back, is `(p, k)`. -/
theorem lift_ix1_columns {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- An `[a]` array laid out as the column `[a, 1]` by the host's broadcast reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column `[a, 1]` laid against `b` columns by the host's broadcast reads, at `(p, c)`, the column at `(p, 0)`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value laid out as a column and then against every column reads, at `(p, c)`, the value of row `p`. -/
theorem broadcastInDim_column_apply {a b : ℕ} (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h2 (broadcastInDim ⟨2, ![a, 1]⟩ (![0] : Fin 1 → Fin 2) h1 x) (ix2 p c)
      = x (ix1 p) :=
  (broadcastInDim_a1_ab_apply _ h2 p c).trans (broadcastInDim_a_a1_apply x h1 p 0)

end Idealize.ShloMosaic.ValueIdx
-- ==== Proof.LibRowScatterSum.lean ====
/-
  Rows of a matrix gathered and scattered at a column of row numbers, read at coordinates.

  For `x : [N, D]` and a column `idx : [E, 1]` of row numbers:
  * element `(e, c)` of the gather `x[idx]` reads operand column `c` (`rows_operandIdx_col`), so it is
    `x (clamp idx[e], c)` (`rows_operandIdx_ix2`, `gather_rows_apply`);
  * an update element `(e, c)` of a row-wise scatter lands on `(n, c')` exactly when the row number `idx[e]`, read
    signed, is `n`, and `c = c'` (`rowScatter_resultIdx?_eq_some_iff`): the row is not clamped, the column is kept;
  * hence the host's accumulating scatter, on the extended reals, is at `(n, c)` the operand there plus the sum of
    `upd (e, c)` over the update rows `e` whose row number is `n` (`hostScatterAdd_rows_apply`): a segment sum;
    `rowsTo_column` names those rows when the column is a vector laid out as `[E, 1]`.
  It builds on the row-index lemmas (rows_operandIdx_row, rowScatter) and the host's column broadcast read at
  coordinates, which it imports.
-/
import proofs.«124116_j50491635531994_2_alg».proof.Proof.LibRowIndex
import proofs.«124116_j50491635531994_2_alg».proof.Proof.LibHostColumns
import Idealize.ShloMosaic.PureOps.Ideal

noncomputable section

namespace Idealize.ShloMosaic.RowIndex

open Idealize.ShloMosaic Idealize.ShloMosaic.ValueIdx

variable (N D E : Nat)

/-! ## The gathered element's column -/

/-- Result element `j = (e, c)` of a row gather reads operand column `c`. -/
theorem rows_operandIdx_col {w : Nat}
    (wf : GatherDims.WF ⟨2, ![N, D]⟩ ⟨2, ![E, 1]⟩ ⟨2, ![E, D]⟩ [1] [0] [] [0] [] 1 ![1, D])
    (idx : IVec ⟨2, ![E, 1]⟩ w) (j : (⟨2, ![E, D]⟩ : Shape).Idx) :
    ((rowsDims N D E wf).operandIdx j idx 1).val = (j 1).val := by
  show (rowsDims N D E wf).start j idx 1 + (rowsDims N D E wf).batchCoord j 1 + (rowsDims N D E wf).offCoord j 1 = _
  rw [GatherDims.batchCoord_eq_zero _ _ _ List.not_mem_nil]
  have hs : (rowsDims N D E wf).start j idx 1 = 0 := by
    unfold GatherDims.start
    rw [dif_neg (fun h => absurd (List.mem_singleton.mp h) (show ¬ ((1 : Fin 2) = 0) by decide))]
  have hk : (1 : Fin 2) ∈ (rowsDims N D E wf).sKept :=
    (GatherDims.mem_sKept _ _).mpr ⟨fun h => absurd (List.mem_singleton.mp h) (show ¬ ((1 : Fin 2) = 0) by decide), List.not_mem_nil⟩
  rw [hs]
  unfold GatherDims.offCoord
  rw [dif_pos hk]
  simp only [Nat.zero_add]
  rfl

/-- Result element `(e, c)` of a row gather reads the operand at `(clamp idx[e], c)`. -/
theorem rows_operandIdx_ix2 {w : Nat} (hN : 0 < N)
    (wf : GatherDims.WF ⟨2, ![N, D]⟩ ⟨2, ![E, 1]⟩ ⟨2, ![E, D]⟩ [1] [0] [] [0] [] 1 ![1, D])
    (idx : IVec ⟨2, ![E, 1]⟩ w) (e : Fin E) (c : Fin D) :
    (rowsDims N D E wf).operandIdx (ix2 e c) idx
      = ix2 (⟨min (idx (atRow e)).toInt.toNat (N - 1), Nat.lt_of_le_of_lt (Nat.min_le_right _ _) (by omega)⟩ : Fin N) c := by
  funext a
  apply Fin.ext
  match a with
  | ⟨0, _⟩ => exact rows_operandIdx_row N D E wf idx (ix2 e c)
  | ⟨1, _⟩ => exact rows_operandIdx_col N D E wf idx (ix2 e c)

/-- The host's row gather at `(e, c)` is the operand at `(clamp idx[e], c)`. -/
theorem gather_rows_apply {α : Type} {w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowsDims N D E wf) x idx (ix2 e c)
      = x (ix2 (⟨min (idx (atRow e)).toInt.toNat (N - 1), Nat.lt_of_le_of_lt (Nat.min_le_right _ _) (by omega)⟩ : Fin N) c) :=
  congrArg x (rows_operandIdx_ix2 N D E hN wf idx e c)

/-! ## Where an update element of a row scatter lands -/

section Lands

variable {w : Nat} (wf : ScatterDims.WF ⟨2, ![N, D]⟩ ⟨2, ![E, 1]⟩ ⟨2, ![E, D]⟩ [1] [0] [0] 1)
  (idx : IVec ⟨2, ![E, 1]⟩ w) (j : (⟨2, ![E, D]⟩ : Shape).Idx)

/-- On the row axis the window starts at the row number read signed. -/
theorem rowScatter_start_row :
    (rowScatter N D E wf).start j idx 0 = (idx (atRow ⟨(j 0).val, idx2_lt0 j⟩)).toInt := by
  unfold ScatterDims.start
  rw [dif_pos (show (0 : Fin 2) ∈ (rowScatter N D E wf).scatterDimsToOperandDims from List.mem_singleton.mpr rfl)]
  have hsi : (rowScatter N D E wf).siIdx j ⟨List.idxOf (0 : Fin 2) (rowScatter N D E wf).scatterDimsToOperandDims,
      List.idxOf_lt_length_iff.2 (List.mem_singleton.mpr rfl)⟩ = atRow ⟨(j 0).val, idx2_lt0 j⟩ := by
    funext b; refine Fin.ext ?_
    match b with
    | ⟨0, _⟩ => rfl
    | ⟨1, _⟩ => rfl
  rw [hsi]

/-- On the column axis the window starts at zero: no index names that axis. -/
theorem rowScatter_start_col : (rowScatter N D E wf).start j idx 1 = 0 := by
  unfold ScatterDims.start
  rw [dif_neg (fun h => absurd (List.mem_singleton.mp h) (show ¬ ((1 : Fin 2) = 0) by decide))]

/-- The row axis is inserted: no window coordinate. -/
theorem rowScatter_window_row : (rowScatter N D E wf).window j 0 = 0 := by
  have hk : (0 : Fin 2) ∉ (rowScatter N D E wf).sKept := by
    intro hmem
    have h2 : (0 : Fin 2) ∈ (List.finRange 2).filter (· ∉ ([0] : List (Fin 2))) := hmem
    simp at h2
  unfold ScatterDims.window
  rw [dif_neg hk]

/-- The column axis carries the update's column. -/
theorem rowScatter_window_col : (rowScatter N D E wf).window j 1 = (j 1).val := by
  have hk : (1 : Fin 2) ∈ (rowScatter N D E wf).sKept := by
    show (1 : Fin 2) ∈ (List.finRange 2).filter (· ∉ ([0] : List (Fin 2)))
    decide
  unfold ScatterDims.window
  rw [dif_pos hk]
  rfl

/-- An update element `j = (e, c)` lands on `i = (n, c')` exactly when its row number, read signed, is `n` and
    `c = c'`. -/
theorem rowScatter_resultIdx?_eq_some_iff (i : (⟨2, ![N, D]⟩ : Shape).Idx) :
    (rowScatter N D E wf).resultIdx? j idx = some i
      ↔ (idx (atRow ⟨(j 0).val, idx2_lt0 j⟩)).toInt = ((i 0).val : Int) ∧ (j 1).val = (i 1).val := by
  have hs0 := rowScatter_start_row N D E wf idx j
  have hs1 := rowScatter_start_col N D E wf idx j
  have hw0 := rowScatter_window_row N D E wf j
  have hw1 := rowScatter_window_col N D E wf j
  have hi0 : (i 0).val < N := idx2_lt0 i
  have hi1 : (i 1).val < D := idx2_lt1 i
  have hj1 : (j 1).val < D := idx2_lt1 j
  unfold ScatterDims.resultIdx?
  split
  · rename_i hb
    constructor
    · intro h
      have h0 : ((rowScatter N D E wf).start j idx 0 + ((rowScatter N D E wf).window j 0 : Int)).toNat = (i 0).val :=
        congrArg (fun f => (f 0).val) (Option.some.inj h)
      have h1 : ((rowScatter N D E wf).start j idx 1 + ((rowScatter N D E wf).window j 1 : Int)).toNat = (i 1).val :=
        congrArg (fun f => (f 1).val) (Option.some.inj h)
      have hb0 := (hb 0).1
      rw [hs0, hw0] at h0 hb0
      rw [hs1, hw1] at h1
      constructor <;> omega
    · rintro ⟨h0, h1⟩
      refine congrArg some (funext fun a => Fin.ext ?_)
      match a with
      | ⟨0, _⟩ =>
        show ((rowScatter N D E wf).start j idx 0 + ((rowScatter N D E wf).window j 0 : Int)).toNat = (i 0).val
        rw [hs0, hw0, h0]; omega
      | ⟨1, _⟩ =>
        show ((rowScatter N D E wf).start j idx 1 + ((rowScatter N D E wf).window j 1 : Int)).toNat = (i 1).val
        rw [hs1, hw1]; omega
  · rename_i hb
    constructor
    · intro h; exact absurd h (by simp)
    · rintro ⟨h0, h1⟩
      refine absurd (fun a => ?_) hb
      match a with
      | ⟨0, _⟩ =>
        show 0 ≤ (rowScatter N D E wf).start j idx 0 + ((rowScatter N D E wf).window j 0 : Int)
          ∧ (rowScatter N D E wf).start j idx 0 + ((rowScatter N D E wf).window j 0 : Int) < (N : Int)
        rw [hs0, hw0, h0]; omega
      | ⟨1, _⟩ =>
        show 0 ≤ (rowScatter N D E wf).start j idx 1 + ((rowScatter N D E wf).window j 1 : Int)
          ∧ (rowScatter N D E wf).start j idx 1 + ((rowScatter N D E wf).window j 1 : Int) < (D : Int)
        rw [hs1, hw1]; omega

end Lands

/-! ## The accumulating row scatter as a segment sum -/

/-- The update rows whose row number, read signed, is `n`. -/
def rowsTo {w : Nat} (idx : IVec ⟨2, ![E, 1]⟩ w) (n : Nat) : Finset (Fin E) :=
  Finset.univ.filter fun e => (idx (atRow e)).toInt = (n : Int)

/-- When the column of row numbers is a vector `x : [E]` laid out as `[E, 1]` by the host's broadcast, the rows sent to
    `n` are the positions `e` with `x e`, read signed, equal to `n`. -/
theorem rowsTo_column {w : Nat} (x : IVec ⟨1, ![E]⟩ w)
    (h : (⟨1, ![E]⟩ : Shape).BroadcastsInDim ⟨2, ![E, 1]⟩ (![0] : Fin 1 → Fin 2)) (n : Nat) :
    rowsTo E (broadcastInDim ⟨2, ![E, 1]⟩ (![0] : Fin 1 → Fin 2) h x) n
      = Finset.univ.filter fun e : Fin E => (x (ix1 e)).toInt = (n : Int) := by
  unfold rowsTo
  refine Finset.filter_congr fun e _ => ?_
  rw [show broadcastInDim ⟨2, ![E, 1]⟩ (![0] : Fin 1 → Fin 2) h x (atRow e) = x (ix1 e) from
    broadcastInDim_a_a1_apply x h e _]

/-- On the extended reals the host's accumulating row scatter is, at `(n, c)`, the operand there plus the sum of the
    updates `(e, c)` over the rows `e` sent to `n`. -/
theorem hostScatterAdd_rows_apply {w : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (upd : (⟨2, ![E, D]⟩ : Shape).Idx → EReal)
    (n : Fin N) (c : Fin D) :
    Ideal.hostScatterAdd (rowScatter N D E wf) x idx upd (ix2 n c)
      = x (ix2 n c) + ∑ e ∈ rowsTo E idx n.val, upd (ix2 e c) := by
  unfold Ideal.hostScatterAdd rowsTo
  refine congrArg (x (ix2 n c) + ·) ?_
  refine Finset.sum_bij' (fun j _ => (⟨(j 0).val, idx2_lt0 j⟩ : Fin E)) (fun e _ => ix2 e c) ?_ ?_ ?_ ?_ ?_
  · intro j hj
    have h := (rowScatter_resultIdx?_eq_some_iff N D E wf idx j (ix2 n c)).mp (Finset.mem_filter.mp hj).2
    exact Finset.mem_filter.mpr ⟨Finset.mem_univ _, h.1⟩
  · intro e he
    have h := (Finset.mem_filter.mp he).2
    exact Finset.mem_filter.mpr ⟨Finset.mem_univ _,
      (rowScatter_resultIdx?_eq_some_iff N D E wf idx (ix2 e c) (ix2 n c)).mpr ⟨h, rfl⟩⟩
  · intro j hj
    have h := (rowScatter_resultIdx?_eq_some_iff N D E wf idx j (ix2 n c)).mp (Finset.mem_filter.mp hj).2
    funext a; apply Fin.ext
    match a with
    | ⟨0, _⟩ => rfl
    | ⟨1, _⟩ => exact h.2.symm
  · intro e _
    rfl
  · intro j hj
    have h := (rowScatter_resultIdx?_eq_some_iff N D E wf idx j (ix2 n c)).mp (Finset.mem_filter.mp hj).2
    refine congrArg upd ?_
    funext a; apply Fin.ext
    match a with
    | ⟨0, _⟩ => rfl
    | ⟨1, _⟩ => exact h.2

/-- The same for the host operation as a program prints it, `Host.scatterAdd` read on the extended reals. -/
theorem scatterAdd_rows_apply {φ : FTy} {w : Nat}
    (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ)
    (n : Fin N) (c : Fin D) :
    Host.scatterAdd (rowScatter N D E wf) x idx upd (ix2 n c)
      = x (ix2 n c) + ∑ e ∈ rowsTo E idx n.val, upd (ix2 e c) :=
  hostScatterAdd_rows_apply N D E wf x idx upd n c

end Idealize.ShloMosaic.RowIndex
-- ==== Proof.LibVecIndex.lean ====
/-
  Entries of a vector gathered and scattered at a column of positions, two vectors laid end to end, and a sum over the
  joined range split at the joint — read at coordinates.

  For a vector `x : [N]` and a column `idx : [E, 1]` of positions:
  * element `e` of the gather `x[idx]` is `x (clamp idx[e])`, the position read signed and clamped into
    `[0, N − 1]` (`gather_vec_apply`);
  * an update element `e` of an entry-wise scatter of `[E]` updates lands on entry `n` exactly when the position
    `idx[e]`, read signed, is `n` (`vecScatter_resultIdx?_eq_some_iff`): the position is not clamped;
  * hence the host's accumulating scatter, on the extended reals, is at `n` the operand there plus the sum of
    `upd e` over the updates `e` whose position is `n` (`hostScatterAdd_vec_apply`): a segment sum.
  For `x : [a]` and `y : [b]` laid end to end into `[c]`, `c = a + b`: position `p < a` reads `x p`, position
  `a + q` reads `y q` (`concatenate_vec_apply_left` / `_right`); and a sum over `Fin c` is the sum over the first
  `a` positions plus the sum over the last `b` (`sum_fin_split`; `sum_filter_fin_split` for a filtered sum).
-/
import proofs.«124116_j50491635531994_2_alg».proof.Proof.LibRowScatterSum
import Idealize.ShloMosaic.Lib.Pipeline.Value

noncomputable section

open scoped BigOperators

namespace Idealize.ShloMosaic.RowIndex

open Idealize.ShloMosaic Idealize.ShloMosaic.ValueIdx

variable (N E : Nat)

/-! ## Entries of a vector gathered at a column of positions -/

/-- Result element `e` of a vector gather reads the operand at `clamp idx[e]`. -/
theorem vec_operandIdx_ix1 {w : Nat} (hN : 0 < N)
    (wf : GatherDims.WF ⟨1, ![N]⟩ ⟨2, ![E, 1]⟩ ⟨1, ![E]⟩ [] [0] [] [0] [] 1 ![1])
    (idx : IVec ⟨2, ![E, 1]⟩ w) (e : Fin E) :
    (vecDims N E wf).operandIdx (ix1 e) idx
      = ix1 (⟨min (idx (atRow e)).toInt.toNat (N - 1), Nat.lt_of_le_of_lt (Nat.min_le_right _ _) (by omega)⟩ : Fin N) := by
  funext a
  apply Fin.ext
  match a with
  | ⟨0, _⟩ => exact vec_operandIdx N E wf idx (ix1 e)

/-- The host's vector gather at `e` is the operand at `clamp idx[e]`: the position read signed and clamped into
    `[0, N − 1]`. -/
theorem gather_vec_apply {α : Type} {w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e)
      = x (ix1 (⟨min (idx (atRow e)).toInt.toNat (N - 1), Nat.lt_of_le_of_lt (Nat.min_le_right _ _) (by omega)⟩ : Fin N)) :=
  congrArg x (vec_operandIdx_ix1 N E hN wf idx e)

/-! ## Entries scattered at a column of positions -/

/-- The dimension numbers of an entry-wise scatter of `[E]` updates into `[N]` at `idx : [E, 1]`: no window axis, the
    operand's one axis inserted and indexed. -/
abbrev vecScatter (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Lands

variable {w : Nat} (wf : ScatterDims.WF ⟨1, ![N]⟩ ⟨2, ![E, 1]⟩ ⟨1, ![E]⟩ [] [0] [0] 1)
  (idx : IVec ⟨2, ![E, 1]⟩ w) (j : (⟨1, ![E]⟩ : Shape).Idx)

/-- The window starts at the position read signed. -/
theorem vecScatter_start :
    (vecScatter N E wf).start j idx 0 = (idx (atRow ⟨(j 0).val, (j 0).isLt⟩)).toInt := by
  unfold ScatterDims.start
  rw [dif_pos (show (0 : Fin 1) ∈ (vecScatter N E wf).scatterDimsToOperandDims from List.mem_singleton.mpr rfl)]
  have hsi : (vecScatter N E wf).siIdx j ⟨List.idxOf (0 : Fin 1) (vecScatter N E wf).scatterDimsToOperandDims,
      List.idxOf_lt_length_iff.2 (List.mem_singleton.mpr rfl)⟩ = atRow ⟨(j 0).val, (j 0).isLt⟩ := by
    funext b; refine Fin.ext ?_
    match b with
    | ⟨0, _⟩ => rfl
    | ⟨1, _⟩ => rfl
  exact congrArg (fun k => (idx k).toInt) hsi

/-- The one axis is inserted: no window coordinate. -/
theorem vecScatter_window : (vecScatter N E wf).window j 0 = 0 := by
  have hk : (0 : Fin 1) ∉ (vecScatter N E wf).sKept := by
    intro hmem
    have h2 : (0 : Fin 1) ∈ (List.finRange 1).filter (· ∉ ([0] : List (Fin 1))) := hmem
    simp at h2
  unfold ScatterDims.window
  rw [dif_neg hk]

/-- An update element `j = e` lands on `i = n` exactly when its position, read signed, is `n`. -/
theorem vecScatter_resultIdx?_eq_some_iff (i : (⟨1, ![N]⟩ : Shape).Idx) :
    (vecScatter N E wf).resultIdx? j idx = some i
      ↔ (idx (atRow ⟨(j 0).val, (j 0).isLt⟩)).toInt = ((i 0).val : Int) := by
  have hs0 := vecScatter_start N E wf idx j
  have hw0 := vecScatter_window N E wf j
  have hi0 : (i 0).val < N := (i 0).isLt
  unfold ScatterDims.resultIdx?
  split
  · rename_i hb
    constructor
    · intro h
      have h0 : ((vecScatter N E wf).start j idx 0 + ((vecScatter N E wf).window j 0 : Int)).toNat = (i 0).val :=
        congrArg (fun f => (f 0).val) (Option.some.inj h)
      have hb0 := (hb 0).1
      rw [hs0, hw0] at h0 hb0
      omega
    · intro h0
      refine congrArg some (funext fun a => Fin.ext ?_)
      match a with
      | ⟨0, _⟩ =>
        show ((vecScatter N E wf).start j idx 0 + ((vecScatter N E wf).window j 0 : Int)).toNat = (i 0).val
        rw [hs0, hw0, h0]; omega
  · rename_i hb
    constructor
    · intro h; exact absurd h (by simp)
    · intro h0
      refine absurd (fun a => ?_) hb
      match a with
      | ⟨0, _⟩ =>
        show 0 ≤ (vecScatter N E wf).start j idx 0 + ((vecScatter N E wf).window j 0 : Int)
          ∧ (vecScatter N E wf).start j idx 0 + ((vecScatter N E wf).window j 0 : Int) < (N : Int)
        rw [hs0, hw0, h0]; omega

end Lands

/-! ## The accumulating vector scatter as a segment sum -/

/-- On the extended reals the host's accumulating vector scatter is, at `n`, the operand there plus the sum of the
    updates `e` over the positions `e` sent to `n` (those whose position word, read signed, is `n`). -/
theorem hostScatterAdd_vec_apply {w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (n : Fin N) :
    Ideal.hostScatterAdd (vecScatter N E wf) x idx upd (ix1 n)
      = x (ix1 n) + ∑ e ∈ rowsTo E idx n.val, upd (ix1 e) := by
  unfold Ideal.hostScatterAdd rowsTo
  refine congrArg (x (ix1 n) + ·) ?_
  refine Finset.sum_bij' (fun j _ => (⟨(j 0).val, (j 0).isLt⟩ : Fin E)) (fun e _ => ix1 e) ?_ ?_ ?_ ?_ ?_
  · intro j hj
    have h := (vecScatter_resultIdx?_eq_some_iff N E wf idx j (ix1 n)).mp (Finset.mem_filter.mp hj).2
    exact Finset.mem_filter.mpr ⟨Finset.mem_univ _, h⟩
  · intro e he
    have h := (Finset.mem_filter.mp he).2
    exact Finset.mem_filter.mpr ⟨Finset.mem_univ _,
      (vecScatter_resultIdx?_eq_some_iff N E wf idx (ix1 e) (ix1 n)).mpr h⟩
  · intro j _
    funext a; apply Fin.ext
    match a with
    | ⟨0, _⟩ => rfl
  · intro e _
    rfl
  · intro j _
    refine congrArg upd ?_
    funext a; apply Fin.ext
    match a with
    | ⟨0, _⟩ => rfl

/-- The same for the host operation as a program prints it, `Host.scatterAdd` read on the extended reals. -/
theorem scatterAdd_vec_apply {φ : FTy} {w : Nat}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (vecScatter N E wf) x idx upd (ix1 n)
      = x (ix1 n) + ∑ e ∈ rowsTo E idx n.val, upd (ix1 e) :=
  hostScatterAdd_vec_apply N E wf x idx upd n

/-! ## Two vectors laid end to end -/

section Concat
variable {α : Type} {a b c : Nat}

/-- Two vectors `x : [a]`, `y : [b]` laid end to end, at a position `p < a`: the first vector at `p`. -/
theorem concatenate_vec_apply_left (x : (⟨1, ![a]⟩ : Shape).Idx → α) (y : (⟨1, ![b]⟩ : Shape).Idx → α)
    (h : Shape.Concatenates [(⟨1, ![a]⟩ : Shape), ⟨1, ![b]⟩] ⟨1, ![c]⟩ 0) (p : Fin c) (hp : p.val < a) :
    concatenate ⟨1, ![c]⟩ 0 [⟨⟨1, ![a]⟩, x⟩, ⟨⟨1, ![b]⟩, y⟩] h (ix1 p) = x (ix1 (⟨p.val, hp⟩ : Fin a)) := by
  refine concatenate_pair_apply_left 0 x y h (ix1 p) rfl (ix1 (⟨p.val, hp⟩ : Fin a)) fun d => ?_
  match d with
  | ⟨0, _⟩ => rfl

/-- Two vectors `x : [a]`, `y : [b]` laid end to end, at the position `a + q`: the second vector at `q`. -/
theorem concatenate_vec_apply_right (x : (⟨1, ![a]⟩ : Shape).Idx → α) (y : (⟨1, ![b]⟩ : Shape).Idx → α)
    (h : Shape.Concatenates [(⟨1, ![a]⟩ : Shape), ⟨1, ![b]⟩] ⟨1, ![c]⟩ 0) (p : Fin c) (q : Fin b)
    (hpq : p.val = a + q.val) :
    concatenate ⟨1, ![c]⟩ 0 [⟨⟨1, ![a]⟩, x⟩, ⟨⟨1, ![b]⟩, y⟩] h (ix1 p) = y (ix1 q) := by
  refine concatenate_pair_apply_right 0 x y h (ix1 p) rfl rfl (ix1 q) (fun d hd => ?_) ?_
  · match d with
    | ⟨0, _⟩ => exact absurd rfl hd
  · show q.val + a = p.val
    omega

end Concat

/-! ## A sum over a joined range, split at the joint -/

section Split
variable {M : Type*} [AddCommMonoid M] {a b c : Nat}

/-- A sum over `c = a + b` positions is the sum over the first `a` plus the sum over the last `b`. -/
theorem sum_fin_split (h : c = a + b) (f : Fin c → M) :
    ∑ i, f i = ∑ e : Fin a, f ⟨e.val, by omega⟩ + ∑ j : Fin b, f ⟨a + j.val, by omega⟩ := by
  subst h
  rw [Fin.sum_univ_add]
  rfl

/-- A filtered sum over `c = a + b` positions is the filtered sum over the first `a` plus the filtered sum over the
    last `b`. -/
theorem sum_filter_fin_split (h : c = a + b) (p : Fin c → Prop) [DecidablePred p] (f : Fin c → M) :
    ∑ i ∈ Finset.univ.filter p, f i
      = ∑ e ∈ Finset.univ.filter (fun e : Fin a => p ⟨e.val, by omega⟩), f ⟨e.val, by omega⟩
        + ∑ j ∈ Finset.univ.filter (fun j : Fin b => p ⟨a + j.val, by omega⟩), f ⟨a + j.val, by omega⟩ := by
  rw [Finset.sum_filter, sum_fin_split h, Finset.sum_filter, Finset.sum_filter]

end Split

end Idealize.ShloMosaic.RowIndex

end
-- ==== Proof.LibERealSum.lean ====
/-
  Two facts about the extended reals, for a sum of products that shares a factor.

  A finite sum of extended reals times a NONNEGATIVE REAL is the sum of the products: the extended reals are not a
  ring (`⊤ + ⊥ = ⊥` breaks distributivity in general), but a nonnegative finite factor distributes over any sum,
  infinite terms included.

  The guarded inverse square root `if 0 < x then x^(-1/2) else 0` is a nonnegative real at EVERY extended real `x`:
  at `⊤` the inverse square root is `0`, at a positive real it is `(√x)⁻¹`, and everywhere else the guard answers `0`.
-/
import Mathlib.Data.EReal.Operations
import Idealize.ShloMosaic.PureOps.Ideal

namespace Idealize.ShloMosaic.ERealSum

open Idealize.ShloMosaic

/-- A finite sum of extended reals times a nonnegative real is the sum of the products. -/
theorem sum_mul_coe {ι : Type*} (s : Finset ι) (f : ι → EReal) {r : ℝ} (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- A sum of products `a · p` times a nonnegative real `D` is the sum of `a · (p · D)`: the factor is moved inside and
    regrouped. The terms may be infinite; `D` may not. -/
theorem sum_mul_assoc {ι : Type*} (s : Finset ι) (a p : ι → EReal) {D : EReal} (hD : ∃ r : ℝ, 0 ≤ r ∧ D = (r : EReal)) :
    (∑ j ∈ s, a j * p j) * D = ∑ j ∈ s, a j * (p j * D) := by
  obtain ⟨r, hr, rfl⟩ := hD
  rw [sum_mul_coe s _ hr]
  exact Finset.sum_congr rfl fun j _ => mul_assoc _ _ _

/-- `if 0 < x then rsqrt x else 0` is a nonnegative real whatever the extended real `x`. -/
theorem guarded_rsqrt_real (x : EReal) :
    ∃ r : ℝ, 0 ≤ r ∧ Scalar.select (Ideal.cmp .ogt x 0) (Ideal.rsqrt x) (0 : EReal) = (r : EReal) := by
  by_cases h : (0 : EReal) < x
  · have hc : Ideal.cmp .ogt x 0 = 1#1 := by simp [Ideal.cmp, h]
    rw [hc]
    show ∃ r : ℝ, 0 ≤ r ∧ Ideal.rsqrt x = (r : EReal)
    induction x using EReal.rec with
    | bot => exact absurd h (by simp)
    | top => exact ⟨0, le_rfl, by rw [EReal.coe_zero]; rfl⟩
    | coe y =>
      have hy : 0 < y := by exact_mod_cast h
      refine ⟨(Real.sqrt y)⁻¹, inv_nonneg.mpr (Real.sqrt_nonneg y), ?_⟩
      show (if y < 0 then (⊥ : EReal) else if y = 0 then ⊤ else (((Real.sqrt y)⁻¹ : ℝ) : EReal)) = _
      rw [if_neg (not_lt.mpr hy.le), if_neg hy.ne']
  · have hc : Ideal.cmp .ogt x 0 = 0#1 := by simp [Ideal.cmp, h]
    rw [hc]
    exact ⟨0, le_rfl, by simp [Scalar.select]⟩

/-- The two arrangements of a normalised aggregate. On the left every term `a · p` is summed (onto zero) and the sum
    scaled by `D`; on the right every term carries its own second factor `q`, which on the summed set is `D`. For a
    nonnegative real `D` the two agree, whatever the terms. -/
theorem scaled_sum_eq {ι : Type*} (s : Finset ι) (a p q : ι → EReal) {D : EReal}
    (hD : ∃ r : ℝ, 0 ≤ r ∧ D = (r : EReal)) (hq : ∀ j ∈ s, q j = D) :
    (0 + ∑ j ∈ s, a j * p j) * D = 0 + ∑ j ∈ s, a j * (p j * q j) := by
  rw [zero_add, zero_add, sum_mul_assoc s a p hD]
  exact Finset.sum_congr rfl fun j hj => by rw [hq j hj]

/-- The same for the host's accumulating scatter at one result element `i`: scattering the terms `a · p` onto an array
    that is zero at `i` and scaling what arrives by `D` is scattering the terms `a · (p · q)` onto such an array, when
    every update that lands on `i` has `q = D` and `D` is a nonnegative real. -/
theorem hostScatterAdd_scaled {s si su : Shape} (d : ScatterDims s si su) {w : Nat} (idx : IVec si w)
    (z z' : s.Idx → EReal) (a p q : su.Idx → EReal) (i : s.Idx) {D : EReal}
    (hz : z i = 0) (hz' : z' i = 0) (hD : ∃ r : ℝ, 0 ≤ r ∧ D = (r : EReal))
    (hq : ∀ j, d.resultIdx? j idx = some i → q j = D) :
    Ideal.hostScatterAdd d z idx (fun j => a j * p j) i * D
      = Ideal.hostScatterAdd d z' idx (fun j => a j * (p j * q j)) i := by
  unfold Ideal.hostScatterAdd
  show (z i + ∑ j ∈ _, a j * p j) * D = z' i + ∑ j ∈ _, a j * (p j * q j)
  rw [hz, hz']
  exact scaled_sum_eq _ a p q hD fun j hj => hq j (Finset.mem_filter.mp hj).2

end Idealize.ShloMosaic.ERealSum
-- ==== Proof.LibGcnLayer.lean ====
/-
  One graph-convolution aggregation, in its two arrangements, on the extended reals.

  Data: a feature matrix `h : [N, D]`, a per-node scale `dis : [N]`, and for each of `E` edges a source row number
  `rw e` (already wrapped) and a target row number `c e`.  A row number is used as the hosts' gather uses it —
  read signed and clamped into `[0, N − 1]` — and as the accumulating scatter uses it — an edge whose target,
  read signed, is not a row is dropped.

  * scale first:  `out (n, d) = dis n · Σ_{e : c e = n} (h (rw e, d) · dis (rw e))`
    (the features are scaled by `dis`, gathered, summed per target, and the sums scaled by `dis` again);
  * weigh the edges:  `out (n, d) = Σ_{e : c e = n} h (rw e, d) · (dis (rw e) · dis (cw e))`
    (each gathered row is weighted by the product of the two ends' scales, `cw e` the wrapped target).

  On the summed set the target's scale is the constant `dis n` (an in-range row number survives the wrap and the
  clamp), so the two agree as soon as that factor may be moved across the sum: it is a nonnegative real.  The
  terms themselves may be infinite.  Stated for any extents `N`, `D`, `E`, over the hosts' row gather, vector gather
  and accumulating row scatter; it builds on the row-gather / segment-sum lemmas, the vector-gather lemma and the
  nonnegative-factor law for sums of extended reals, which it imports.
-/
import proofs.«124116_j50491635531994_2_alg».proof.Proof.LibRowScatterSum
import proofs.«124116_j50491635531994_2_alg».proof.Proof.LibVecIndex
import proofs.«124116_j50491635531994_2_alg».proof.Proof.LibERealSum

noncomputable section

namespace Cert.Gcn

open Idealize.ShloMosaic Idealize.ShloMosaic.ValueIdx Idealize.ShloMosaic.RowIndex

variable (N D E : Nat)

/-- A vector of extended reals all of whose entries are nonnegative reals. -/
def NonnegReal {s : Shape} (v : s.Idx → EReal) : Prop := ∀ i, ∃ r : ℝ, 0 ≤ r ∧ v i = (r : EReal)

/-- The wrapped form of a column of row numbers: a negative one has `off` added. -/
def IsWrapOf (off : BitVec 32) (cw c : IVec ⟨1, ![E]⟩ 32) : Prop :=
  ∀ e : Fin E, cw (ix1 e) = Scalar.select (IntOp.cmpi .slt (c (ix1 e)) 0#32) (IntOp.addi (c (ix1 e)) off) (c (ix1 e))

/-- The row a gather reads for edge `e`: the row number read signed, clamped into `[0, N − 1]`. -/
def rowOf (hN : 0 < N) (v : IVec ⟨1, ![E]⟩ 32) (e : Fin E) : Fin N :=
  ⟨min (v (ix1 e)).toInt.toNat (N - 1), Nat.lt_of_le_of_lt (Nat.min_le_right _ _) (by omega)⟩

section
variable (hN : 0 < N)
  (gwf : GatherDims.WF ⟨2, ![N, D]⟩ ⟨2, ![E, 1]⟩ ⟨2, ![E, D]⟩ [1] [0] [] [0] [] 1 ![1, D])
  (swf : ScatterDims.WF ⟨2, ![N, D]⟩ ⟨2, ![E, 1]⟩ ⟨2, ![E, D]⟩ [1] [0] [0] 1)
  (vwf : GatherDims.WF ⟨1, ![N]⟩ ⟨2, ![E, 1]⟩ ⟨1, ![E]⟩ [] [0] [] [0] [] 1 ![1])
  (hb1 : (⟨1, ![N]⟩ : Shape).BroadcastsInDim ⟨2, ![N, 1]⟩ (![0] : Fin 1 → Fin 2))
  (hb2 : (⟨2, ![N, 1]⟩ : Shape).BroadcastsInDim ⟨2, ![N, D]⟩ (![0, 1] : Fin 2 → Fin 2))
  (hbE : (⟨1, ![E]⟩ : Shape).BroadcastsInDim ⟨2, ![E, 1]⟩ (![0] : Fin 1 → Fin 2))
  (hbED : (⟨2, ![E, 1]⟩ : Shape).BroadcastsInDim ⟨2, ![E, D]⟩ (![0, 1] : Fin 2 → Fin 2))

/-- The per-node scale spread over the columns of `[N, D]`. -/
def spread (dis : FVec Ideal ⟨1, ![N]⟩ .f32) : FVec Ideal ⟨2, ![N, D]⟩ .f32 :=
  broadcastInDim ⟨2, ![N, D]⟩ (![0, 1] : Fin 2 → Fin 2) hb2 (broadcastInDim ⟨2, ![N, 1]⟩ (![0] : Fin 1 → Fin 2) hb1 dis)

/-- A vector of row numbers as the column `[E, 1]` the gather and the scatter take. -/
def col (v : IVec ⟨1, ![E]⟩ 32) : IVec ⟨2, ![E, 1]⟩ 32 :=
  broadcastInDim ⟨2, ![E, 1]⟩ (![0] : Fin 1 → Fin 2) hbE v

/-- Scale first: scale, gather, sum per target onto `z`, scale again. -/
def scaleFirst (z h : FVec Ideal ⟨2, ![N, D]⟩ .f32) (dis : FVec Ideal ⟨1, ![N]⟩ .f32) (rw c : IVec ⟨1, ![E]⟩ 32) :
    FVec Ideal ⟨2, ![N, D]⟩ .f32 :=
  mulf (spread N D hb1 hb2 dis)
    (Host.scatterAdd (rowScatter N D E swf) z (col E hbE c)
      (Host.gather (rowsDims N D E gwf) (mulf h (spread N D hb1 hb2 dis)) (col E hbE rw)))

/-- Weigh the edges: gather, weigh each row by the product of its two ends' scales, sum per target onto `z`. -/
def weighEdges (z h : FVec Ideal ⟨2, ![N, D]⟩ .f32) (dis : FVec Ideal ⟨1, ![N]⟩ .f32) (rw cw c : IVec ⟨1, ![E]⟩ 32) :
    FVec Ideal ⟨2, ![N, D]⟩ .f32 :=
  Host.scatterAdd (rowScatter N D E swf) z (col E hbE c)
    (mulf (Host.gather (rowsDims N D E gwf) h (col E hbE rw))
      (broadcastInDim ⟨2, ![E, D]⟩ (![0, 1] : Fin 2 → Fin 2) hbED
        (broadcastInDim ⟨2, ![E, 1]⟩ (![0] : Fin 1 → Fin 2) hbE
          (mulf (Host.gather (vecDims N E vwf) dis (col E hbE rw)) (Host.gather (vecDims N E vwf) dis (col E hbE cw))))))

theorem col_atRow (v : IVec ⟨1, ![E]⟩ 32) (e : Fin E) : col E hbE v (atRow e) = v (ix1 e) :=
  broadcastInDim_a_a1_apply v hbE e _

theorem spread_apply (dis : FVec Ideal ⟨1, ![N]⟩ .f32) (n : Fin N) (d : Fin D) :
    spread N D hb1 hb2 dis (ix2 n d) = dis (ix1 n) :=
  broadcastInDim_column_apply dis hb1 hb2 n d

/-- Scale first, read at `(n, d)`. -/
theorem scaleFirst_apply (z h : FVec Ideal ⟨2, ![N, D]⟩ .f32) (dis : FVec Ideal ⟨1, ![N]⟩ .f32)
    (rw c : IVec ⟨1, ![E]⟩ 32) (n : Fin N) (d : Fin D) :
    scaleFirst N D E gwf swf hb1 hb2 hbE z h dis rw c (ix2 n d)
      = (z (ix2 n d) + ∑ e ∈ rowsTo E (col E hbE c) n.val,
          h (ix2 (rowOf N E hN rw e) d) * dis (ix1 (rowOf N E hN rw e))) * dis (ix1 n) := by
  unfold scaleFirst
  show spread N D hb1 hb2 dis (ix2 n d) * Host.scatterAdd (rowScatter N D E swf) z (col E hbE c) _ (ix2 n d) = _
  rw [spread_apply, scatterAdd_rows_apply, mul_comm]
  refine congrArg (fun S => (z (ix2 n d) + S) * dis (ix1 n)) (Finset.sum_congr rfl fun e _ => ?_)
  rw [gather_rows_apply N D E hN gwf, col_atRow]
  show h (ix2 _ d) * spread N D hb1 hb2 dis (ix2 _ d) = _
  rw [spread_apply]
  rfl

/-- Weigh the edges, read at `(n, d)`. -/
theorem weighEdges_apply (z h : FVec Ideal ⟨2, ![N, D]⟩ .f32) (dis : FVec Ideal ⟨1, ![N]⟩ .f32)
    (rw cw c : IVec ⟨1, ![E]⟩ 32) (n : Fin N) (d : Fin D) :
    weighEdges N D E gwf swf vwf hbE hbED z h dis rw cw c (ix2 n d)
      = z (ix2 n d) + ∑ e ∈ rowsTo E (col E hbE c) n.val,
          h (ix2 (rowOf N E hN rw e) d) * (dis (ix1 (rowOf N E hN rw e)) * dis (ix1 (rowOf N E hN cw e))) := by
  unfold weighEdges
  rw [scatterAdd_rows_apply]
  refine congrArg (z (ix2 n d) + ·) (Finset.sum_congr rfl fun e _ => ?_)
  show Host.gather (rowsDims N D E gwf) h (col E hbE rw) (ix2 e d) * broadcastInDim _ _ hbED _ (ix2 e d) = _
  rw [gather_rows_apply N D E hN gwf, col_atRow, broadcastInDim_column_apply _ hbE hbED e d]
  show _ * (Host.gather (vecDims N E vwf) dis (col E hbE rw) (ix1 e) * Host.gather (vecDims N E vwf) dis (col E hbE cw) (ix1 e)) = _
  rw [gather_vec_apply N E hN vwf, gather_vec_apply N E hN vwf, col_atRow, col_atRow]
  rfl

include hN in
/-- The two arrangements agree when the scale is a nonnegative real at every node and both sums start from zero. -/
theorem scaleFirst_eq_weighEdges (off : BitVec 32) (z z' h : FVec Ideal ⟨2, ![N, D]⟩ .f32)
    (dis : FVec Ideal ⟨1, ![N]⟩ .f32) (rw cw c : IVec ⟨1, ![E]⟩ 32)
    (hz : ∀ i, z i = 0) (hz' : ∀ i, z' i = 0) (hdis : NonnegReal dis) (hcw : IsWrapOf E off cw c) :
    scaleFirst N D E gwf swf hb1 hb2 hbE z h dis rw c = weighEdges N D E gwf swf vwf hbE hbED z' h dis rw cw c := by
  funext i
  obtain ⟨n, d, rfl⟩ : ∃ (n : Fin N) (d : Fin D), i = ix2 n d := ⟨i 0, i 1, eq_ix2 i⟩
  rw [scaleFirst_apply N D E hN, weighEdges_apply N D E hN, hz, hz']
  refine ERealSum.scaled_sum_eq _ _ _ _ (hdis (ix1 n)) fun e he => ?_
  have hto : (c (ix1 e)).toInt = (n.val : Int) := by
    have := (Finset.mem_filter.mp he).2
    rwa [col_atRow] at this
  have hrow : rowOf N E hN cw e = n := by
    apply Fin.ext
    show min (cw (ix1 e)).toInt.toNat (N - 1) = n.val
    rw [hcw e]
    exact wrap_clamp_of_toInt_eq (c (ix1 e)) off n.val n.isLt hto
  rw [hrow]

end

end Cert.Gcn

end
-- ==== Proof.KernelStages.lean ====
/-
  The idealized kernel's buffers at the boundaries between its segments.

  @main is host operations, region 0 (the first projection, scaled), host operations (gather by source, sum per
  target), region 1 (combine, rectify, second projection, scaled), host operations (gather, sum per target), region 2
  (the final combine).  The run's buffer contents at the boundaries are a fold; here each buffer a later segment reads
  is read back through that fold: the index vectors, the degree scale and the converted weights after the first
  stretch (they are the very terms the reference computes, so they are stated as the reference's stage functions of
  the same arguments); across a region, an array the region does not write — or only reads through an input window
  — keeps its contents, and its output array holds what the pipeline's write-backs leave; across a host stretch an
  unwritten buffer keeps its contents and the aggregate is the accumulating row scatter of the row gather.
-/
import proofs.«124116_j50491635531994_2_alg».proof.Proof.Gen.KernelIdeal.Frame
import proofs.«124116_j50491635531994_2_alg».proof.Proof.Gen.ReferenceIdeal.Read
import proofs.«124116_j50491635531994_2_alg».proof.Proof.LibGcnLayer

set_option maxRecDepth 16384

noncomputable section

namespace Cert.KernelIdeal.Stages

open Cert.KernelIdeal Cert.KernelIdeal.Gen Cert.Gcn
open Idealize.ShloMosaic Idealize.ShloMosaic.TcCoe Idealize.SL.Sem Idealize.ShloMosaic.StableHlo
open Idealize.ShloMosaic.ValueIdx Idealize.ShloMosaic.RowIndex

variable (m : (ℓ : Loc nD τ sig) → Buf (Elt Ideal) ℓ) (ρ : Dev nD → PrngReg) (c : Dev nD)

/-! ## After the first host stretch -/

/-- The source row numbers. -/
theorem w1_v1 : W1 m ρ c (Proc.devRef .tc main_v1)
    = Cert.ReferenceIdeal.Read.val_main_v1 (F := Ideal) (m ((c : Thread nD τ).loc main_arg1)) := by
  show StableHlo.after hostOps0 (W0 m ρ c) (Proc.devRef .tc main_v1) = _
  after_results
  rfl

/-- The target row numbers. -/
theorem w1_v3 : W1 m ρ c (Proc.devRef .tc main_v3)
    = Cert.ReferenceIdeal.Read.val_main_v3 (F := Ideal) (m ((c : Thread nD τ).loc main_arg1)) := by
  show StableHlo.after hostOps0 (W0 m ρ c) (Proc.devRef .tc main_v3) = _
  after_results
  rfl

/-- The degree scale, as a column. -/
theorem w1_v11 : W1 m ρ c (Proc.devRef .tc main_v11)
    = shapeCast S50000x1 (Cert.ReferenceIdeal.Read.val_main_v11 (F := Ideal) (m ((c : Thread nD τ).loc main_arg1))) shapeCasts_S50000_S50000x1 := by
  show StableHlo.after hostOps0 (W0 m ρ c) (Proc.devRef .tc main_v11) = _
  after_results
  rfl

/-- The features, converted: at this instance the conversion is the identity. -/
theorem w1_v12 (i : S50000x128.Idx) :
    (W1 m ρ c (Proc.devRef .tc main_v12) : S50000x128.Idx → EReal) i = (m ((c : Thread nD τ).loc main_arg0) : S50000x128.Idx → EReal) i := by
  show (StableHlo.after hostOps0 (W0 m ρ c) (Proc.devRef .tc main_v12) : S50000x128.Idx → EReal) i = _
  after_results
  rfl

/-- The first weight matrix, converted. -/
theorem w1_v13 (i : S128x256.Idx) :
    (W1 m ρ c (Proc.devRef .tc main_v13) : S128x256.Idx → EReal) i = (m ((c : Thread nD τ).loc main_arg2) : S128x256.Idx → EReal) i := by
  show (StableHlo.after hostOps0 (W0 m ρ c) (Proc.devRef .tc main_v13) : S128x256.Idx → EReal) i = _
  after_results
  rfl

theorem w1_arg3 : W1 m ρ c (Proc.devRef .tc main_arg3) = m ((c : Thread nD τ).loc main_arg3) := by
  show StableHlo.after hostOps0 (W0 m ρ c) (Proc.devRef .tc main_arg3) = _
  after_results
theorem w1_arg4 : W1 m ρ c (Proc.devRef .tc main_arg4) = m ((c : Thread nD τ).loc main_arg4) := by
  show StableHlo.after hostOps0 (W0 m ρ c) (Proc.devRef .tc main_arg4) = _
  after_results
theorem w1_arg5 : W1 m ρ c (Proc.devRef .tc main_arg5) = m ((c : Thread nD τ).loc main_arg5) := by
  show StableHlo.after hostOps0 (W0 m ρ c) (Proc.devRef .tc main_arg5) = _
  after_results

/-! ## Across region 0 -/

theorem w2_v14 : W2 m ρ c (Proc.devRef .tc main_v14) = (dat0 (V1 m ρ) c).arrAt 3 cfg0.N := W2_arr m ρ c 3
theorem w2_v11 : W2 m ρ c (Proc.devRef .tc main_v11) = W1 m ρ c (Proc.devRef .tc main_v11) :=
  (W2_arr m ρ c 2).trans (((dat0 (V1 m ρ) c).arrAt_in 2 rfl _).trans (A_eq0 (V1 m ρ) c 2))
theorem w2_v1 : W2 m ρ c (Proc.devRef .tc main_v1) = W1 m ρ c (Proc.devRef .tc main_v1) := W2_of_ne m ρ c main_v1 (by decide)
theorem w2_v3 : W2 m ρ c (Proc.devRef .tc main_v3) = W1 m ρ c (Proc.devRef .tc main_v3) := W2_of_ne m ρ c main_v3 (by decide)
theorem w2_arg3 : W2 m ρ c (Proc.devRef .tc main_arg3) = W1 m ρ c (Proc.devRef .tc main_arg3) := W2_of_ne m ρ c main_arg3 (by decide)
theorem w2_arg4 : W2 m ρ c (Proc.devRef .tc main_arg4) = W1 m ρ c (Proc.devRef .tc main_arg4) := W2_of_ne m ρ c main_arg4 (by decide)
theorem w2_arg5 : W2 m ρ c (Proc.devRef .tc main_arg5) = W1 m ρ c (Proc.devRef .tc main_arg5) := W2_of_ne m ρ c main_arg5 (by decide)

/-! ## After the second host stretch -/

/-- The first aggregate: the scaled projection gathered at the wrapped source rows and summed per target onto zeros. -/
theorem w3_v24 : @Eq (FVec Ideal S50000x256 .f32) (W3 m ρ c (Proc.devRef .tc main_v24))
    (Host.scatterAdd (rowScatter 50000 256 800000 scatter_S50000x256_S800000x1_S800000x256_1_0_0_1_wf)
        (Cert.ReferenceIdeal.Read.val_main_v37 (F := Ideal))
        (col 800000 bcast_S800000_S800000x1_0 (Cert.ReferenceIdeal.Read.val_main_v3 (F := Ideal) (m ((c : Thread nD τ).loc main_arg1))))
        (Host.gather (rowsDims 50000 256 800000 gather_S50000x256_S800000x1_S800000x256_1_0_n_n_0_1_1256_wf)
          (W2 m ρ c (Proc.devRef .tc main_v14))
          (col 800000 bcast_S800000_S800000x1_0 (Cert.ReferenceIdeal.Read.val_main_v16 (F := Ideal) (m ((c : Thread nD τ).loc main_arg1)))))) := by
  show @Eq (FVec Ideal S50000x256 .f32) (StableHlo.after hostOps1 (W2 m ρ c) (Proc.devRef .tc main_v24)) _
  after_results
  rw [w2_v1, w2_v3, w1_v1, w1_v3]
  rfl

theorem w3_v14 : W3 m ρ c (Proc.devRef .tc main_v14) = W2 m ρ c (Proc.devRef .tc main_v14) := by
  show StableHlo.after hostOps1 (W2 m ρ c) (Proc.devRef .tc main_v14) = _
  after_results
theorem w3_v11 : W3 m ρ c (Proc.devRef .tc main_v11) = W2 m ρ c (Proc.devRef .tc main_v11) := by
  show StableHlo.after hostOps1 (W2 m ρ c) (Proc.devRef .tc main_v11) = _
  after_results
theorem w3_v1 : W3 m ρ c (Proc.devRef .tc main_v1) = W2 m ρ c (Proc.devRef .tc main_v1) := by
  show StableHlo.after hostOps1 (W2 m ρ c) (Proc.devRef .tc main_v1) = _
  after_results
theorem w3_v3 : W3 m ρ c (Proc.devRef .tc main_v3) = W2 m ρ c (Proc.devRef .tc main_v3) := by
  show StableHlo.after hostOps1 (W2 m ρ c) (Proc.devRef .tc main_v3) = _
  after_results
theorem w3_arg5 : W3 m ρ c (Proc.devRef .tc main_arg5) = W2 m ρ c (Proc.devRef .tc main_arg5) := by
  show StableHlo.after hostOps1 (W2 m ρ c) (Proc.devRef .tc main_arg5) = _
  after_results
/-- The first bias as a row. -/
theorem w3_v25 : W3 m ρ c (Proc.devRef .tc main_v25)
    = shapeCast S1x256 (m ((c : Thread nD τ).loc main_arg3)) shapeCasts_S256_S1x256 := by
  show StableHlo.after hostOps1 (W2 m ρ c) (Proc.devRef .tc main_v25) = _
  after_results
  rw [w2_arg3, w1_arg3]
  rfl
/-- The second weight matrix, converted. -/
theorem w3_v26 (i : S256x128.Idx) :
    (W3 m ρ c (Proc.devRef .tc main_v26) : S256x128.Idx → EReal) i = (m ((c : Thread nD τ).loc main_arg4) : S256x128.Idx → EReal) i := by
  show (StableHlo.after hostOps1 (W2 m ρ c) (Proc.devRef .tc main_v26) : S256x128.Idx → EReal) i = _
  after_results
  rw [w2_arg4, w1_arg4]
  rfl

/-! ## Across region 1 -/

theorem w4_v27 : W4 m ρ c (Proc.devRef .tc main_v27) = (dat1 (V3 m ρ) c).arrAt 5 cfg1.N := W4_arr m ρ c 5
theorem w4_v11 : W4 m ρ c (Proc.devRef .tc main_v11) = W3 m ρ c (Proc.devRef .tc main_v11) :=
  (W4_arr m ρ c 2).trans (((dat1 (V3 m ρ) c).arrAt_in 2 rfl _).trans (A_eq1 (V3 m ρ) c 2))
theorem w4_v1 : W4 m ρ c (Proc.devRef .tc main_v1) = W3 m ρ c (Proc.devRef .tc main_v1) := W4_of_ne m ρ c main_v1 (by decide)
theorem w4_v3 : W4 m ρ c (Proc.devRef .tc main_v3) = W3 m ρ c (Proc.devRef .tc main_v3) := W4_of_ne m ρ c main_v3 (by decide)
theorem w4_arg5 : W4 m ρ c (Proc.devRef .tc main_arg5) = W3 m ρ c (Proc.devRef .tc main_arg5) := W4_of_ne m ρ c main_arg5 (by decide)

/-! ## After the third host stretch -/

/-- The second aggregate. -/
theorem w5_v37 : @Eq (FVec Ideal S50000x128 .f32) (W5 m ρ c (Proc.devRef .tc main_v37))
    (Host.scatterAdd (rowScatter 50000 128 800000 scatter_S50000x128_S800000x1_S800000x128_1_0_0_1_wf)
        (Cert.ReferenceIdeal.Read.val_main_v82 (F := Ideal))
        (col 800000 bcast_S800000_S800000x1_0 (Cert.ReferenceIdeal.Read.val_main_v3 (F := Ideal) (m ((c : Thread nD τ).loc main_arg1))))
        (Host.gather (rowsDims 50000 128 800000 gather_S50000x128_S800000x1_S800000x128_1_0_n_n_0_1_1128_wf)
          (W4 m ρ c (Proc.devRef .tc main_v27))
          (col 800000 bcast_S800000_S800000x1_0 (Cert.ReferenceIdeal.Read.val_main_v16 (F := Ideal) (m ((c : Thread nD τ).loc main_arg1)))))) := by
  show @Eq (FVec Ideal S50000x128 .f32) (StableHlo.after hostOps2 (W4 m ρ c) (Proc.devRef .tc main_v37)) _
  after_results
  rw [w4_v1, w4_v3, w3_v1, w3_v3, w2_v1, w2_v3, w1_v1, w1_v3]
  rfl

theorem w5_v27 : W5 m ρ c (Proc.devRef .tc main_v27) = W4 m ρ c (Proc.devRef .tc main_v27) := by
  show StableHlo.after hostOps2 (W4 m ρ c) (Proc.devRef .tc main_v27) = _
  after_results
theorem w5_v11 : W5 m ρ c (Proc.devRef .tc main_v11) = W4 m ρ c (Proc.devRef .tc main_v11) := by
  show StableHlo.after hostOps2 (W4 m ρ c) (Proc.devRef .tc main_v11) = _
  after_results
/-- The second bias as a row. -/
theorem w5_v38 : W5 m ρ c (Proc.devRef .tc main_v38)
    = shapeCast S1x128 (m ((c : Thread nD τ).loc main_arg5)) shapeCasts_S128_S1x128 := by
  show StableHlo.after hostOps2 (W4 m ρ c) (Proc.devRef .tc main_v38) = _
  after_results
  rw [w4_arg5, w3_arg5, w2_arg5, w1_arg5]
  rfl

/-! ## Across region 2 -/

theorem w6_v39 : W6 m ρ c (Proc.devRef .tc main_v39) = (dat2 (V5 m ρ) c).arrAt 4 cfg2.N := W6_arr m ρ c 4

/-- The degree scale's column reaches every region unchanged. -/
theorem v11_everywhere :
    W5 m ρ c (Proc.devRef .tc main_v11) = W1 m ρ c (Proc.devRef .tc main_v11)
    ∧ W3 m ρ c (Proc.devRef .tc main_v11) = W1 m ρ c (Proc.devRef .tc main_v11) :=
  ⟨(w5_v11 m ρ c).trans ((w4_v11 m ρ c).trans ((w3_v11 m ρ c).trans (w2_v11 m ρ c))), (w3_v11 m ρ c).trans (w2_v11 m ρ c)⟩

end Cert.KernelIdeal.Stages

end
-- ==== Proof.LibGcnSelfLoop.lean ====
/-
  A graph-convolution layer with its self-loop term, in its two arrangements, on the extended reals.

  With `h : [N, D]` the projected features, `dis : [N]` the per-node scale `deg^(-1/2)`, and for each of `E` edges a
  wrapped source row number `rw e`, a target `c e` and its wrapped form `cw e`:

  * scale first (the node-wise form):
      `out (n, d) = dis n · ( Σ_{e : c e = n} hs (rw e, d)  +  hs (n, d) ) + bias`,   `hs (n, d) = h (n, d) · dis n`;
  * weigh the edges (the edge-wise form):
      `out (n, d) = Σ_{e : c e = n} h (rw e, d) · (dis (rw e) · dis (cw e))  +  h (n, d) · (dis n · dis n) + bias`.

  They agree at every `(n, d)` as soon as `dis n` is a nonnegative real: that factor then distributes over the sum
  of the aggregate and the self-loop term (the terms themselves may be infinite), and the aggregate's two forms
  are the two arrangements of the plain aggregation.  The scale that a degree count produces,
  `rsqrt (Σ_{e : c e = n} 1 + 1)`, is such a nonnegative real: the count is a natural number, so the argument is a
  real number ≥ 1.  Stated for any extents `N`, `D`, `E` over the hosts' row gather, vector gather, and accumulating
  row / vector scatters.
-/
import proofs.«124116_j50491635531994_2_alg».proof.Proof.LibGcnLayer

noncomputable section

namespace Cert.Gcn

open Idealize.ShloMosaic Idealize.ShloMosaic.ValueIdx Idealize.ShloMosaic.RowIndex

variable (N D E : Nat)

/-- The f32 pattern of one denotes the number one. -/
theorem ofBits_one_f32 : Ideal.ofBits .f32 0x3F800000#32 = 1 := by
  simp [Ideal.ofBits, Ideal.ieee, -EReal.coe_mul]; norm_num

/-- `rsqrt` of a real number that is at least one is a nonnegative real. -/
theorem rsqrt_coe_nonnegReal {r : ℝ} (hr : 1 ≤ r) : ∃ s : ℝ, 0 ≤ s ∧ Ideal.rsqrt (r : EReal) = (s : EReal) := by
  refine ⟨(Real.sqrt r)⁻¹, inv_nonneg.mpr (Real.sqrt_nonneg r), ?_⟩
  rw [Ideal.rsqrt_coe, if_neg (by linarith), if_neg (by linarith)]

/-- The scale a degree count produces — `rsqrt` of (the number of edges sent to `n`, summed onto zero, plus one) —
    is a nonnegative real at every node. -/
theorem rsqrt_count_nonnegReal
    (vswf : ScatterDims.WF ⟨1, ![N]⟩ ⟨2, ![E, 1]⟩ ⟨1, ![E]⟩ [] [0] [0] 1)
    (z one : FVec Ideal ⟨1, ![N]⟩ .f32) (ones : FVec Ideal ⟨1, ![E]⟩ .f32) (idx : IVec ⟨2, ![E, 1]⟩ 32)
    (hz : ∀ i, z i = 0) (hone : ∀ i, one i = 1) (hones : ∀ i, ones i = 1) :
    NonnegReal (Host.rsqrt (addf (Host.scatterAdd (vecScatter N E vswf) z idx ones) one)) := by
  intro i
  obtain ⟨n, rfl⟩ : ∃ n : Fin N, i = ix1 n := ⟨i 0, eq_ix1 i⟩
  show ∃ r : ℝ, 0 ≤ r ∧ Ideal.rsqrt (Host.scatterAdd (vecScatter N E vswf) z idx ones (ix1 n) + one (ix1 n)) = (r : EReal)
  have hsum : ∑ e ∈ rowsTo E idx n.val, ones (ix1 e) = (((rowsTo E idx n.val).card : ℕ) : EReal) := by
    rw [Finset.sum_congr rfl (fun e _ => hones (ix1 e))]; simp
  rw [scatterAdd_vec_apply, hz, hone, zero_add, hsum]
  have : ((((rowsTo E idx n.val).card : ℕ) : EReal) + 1) = (((((rowsTo E idx n.val).card : ℕ) : ℝ) + 1 : ℝ) : EReal) := by
    rw [EReal.coe_add, EReal.coe_one, EReal.coe_natCast]
  rw [this]
  exact rsqrt_coe_nonnegReal (by have : (0 : ℝ) ≤ ((rowsTo E idx n.val).card : ℝ) := Nat.cast_nonneg _; linarith)

section
variable (hN : 0 < N)
  (gwf : GatherDims.WF ⟨2, ![N, D]⟩ ⟨2, ![E, 1]⟩ ⟨2, ![E, D]⟩ [1] [0] [] [0] [] 1 ![1, D])
  (swf : ScatterDims.WF ⟨2, ![N, D]⟩ ⟨2, ![E, 1]⟩ ⟨2, ![E, D]⟩ [1] [0] [0] 1)
  (vwf : GatherDims.WF ⟨1, ![N]⟩ ⟨2, ![E, 1]⟩ ⟨1, ![E]⟩ [] [0] [] [0] [] 1 ![1])
  (hb1 : (⟨1, ![N]⟩ : Shape).BroadcastsInDim ⟨2, ![N, 1]⟩ (![0] : Fin 1 → Fin 2))
  (hb2 : (⟨2, ![N, 1]⟩ : Shape).BroadcastsInDim ⟨2, ![N, D]⟩ (![0, 1] : Fin 2 → Fin 2))
  (hbE : (⟨1, ![E]⟩ : Shape).BroadcastsInDim ⟨2, ![E, 1]⟩ (![0] : Fin 1 → Fin 2))
  (hbED : (⟨2, ![E, 1]⟩ : Shape).BroadcastsInDim ⟨2, ![E, D]⟩ (![0, 1] : Fin 2 → Fin 2))

include hN hb1 hb2 in
/-- The node-wise form of the layer at `(n, d)` — the scaled features `hs` gathered, summed per target into `agg`,
    the self-loop term added, the sum scaled again — is the edge-wise form there. -/
theorem layer_at (off : BitVec 32) (z z' h hs agg : FVec Ideal ⟨2, ![N, D]⟩ .f32)
    (dis : FVec Ideal ⟨1, ![N]⟩ .f32) (rw cw c : IVec ⟨1, ![E]⟩ 32)
    (hz : ∀ i, z i = 0) (hz' : ∀ i, z' i = 0) (hdis : NonnegReal dis) (hcw : IsWrapOf E off cw c)
    (hhs : ∀ (n : Fin N) (d : Fin D), hs (ix2 n d) = h (ix2 n d) * dis (ix1 n))
    (hagg : agg = Host.scatterAdd (rowScatter N D E swf) z (col E hbE c)
              (Host.gather (rowsDims N D E gwf) hs (col E hbE rw)))
    (bias : EReal) (n : Fin N) (d : Fin D) :
    dis (ix1 n) * (agg (ix2 n d) + hs (ix2 n d)) + bias
      = (weighEdges N D E gwf swf vwf hbE hbED z' h dis rw cw c (ix2 n d)
          + h (ix2 n d) * (dis (ix1 n) * dis (ix1 n))) + bias := by
  have hhs' : hs = mulf h (spread N D hb1 hb2 dis) := by
    funext i
    obtain ⟨p, q, rfl⟩ : ∃ (p : Fin N) (q : Fin D), i = ix2 p q := ⟨i 0, i 1, eq_ix2 i⟩
    rw [hhs, mulf_apply, spread_apply]
  have key := congrFun (scaleFirst_eq_weighEdges N D E hN gwf swf vwf hb1 hb2 hbE hbED off z z' h dis rw cw c
    hz hz' hdis hcw) (ix2 n d)
  unfold scaleFirst at key
  rw [mulf_apply, spread_apply, ← hhs', ← hagg] at key
  obtain ⟨r, hr, hd⟩ := hdis (ix1 n)
  rw [← key, hhs n d, hd, EReal.left_distrib_of_nonneg_of_ne_top (EReal.coe_nonneg.mpr hr) (EReal.coe_ne_top r)]
  congr 2
  rw [mul_left_comm]

end

end Cert.Gcn

end
-- ==== Proof.LibHostRows.lean ====
/-
  The host's keepdims broadcasts for a ROW, read at coordinates, for any extents and element type:
  a vector [b] laid out as the row [1, b] (broadcast_in_dim with dims [1]) reads (u, q) at q, and a row [1, b] laid
  against a rows (dims [0, 1]) reads (p, q) at (0, q): what a bias b[None, :] added to every row of a matrix needs.
-/
import Idealize.ShloMosaic.Lib.ValueIdx
import Idealize.ShloMosaic.Lib.Pipeline.Value

namespace Idealize.ShloMosaic.ValueIdx

variable {α : Type}

/-- A `[b]` array laid out as the row `[1, b]` by the host's broadcast reads, at `(u, q)`, the operand at `q`. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ (![1] : Fin 1 → Fin 2) h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row `[1, b]` laid against `a` rows by the host's broadcast reads, at `(p, q)`, the row at `(0, q)`. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h v (ix2 p q) = v (ix2 (0 : Fin 1) q) := by
  refine broadcastInDim_apply _ h v (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if b = 1 then 0 else q.val
    split
    · have := q.isLt; omega
    · rfl

/-- A per-column value laid out as a row and then against every row reads, at `(p, q)`, the value of column `q`. -/
theorem broadcastInDim_row_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h2 (broadcastInDim ⟨2, ![1, b]⟩ (![1] : Fin 1 → Fin 2) h1 x) (ix2 p q)
      = x (ix1 q) :=
  (broadcastInDim_1b_ab_apply _ h2 p q).trans (broadcastInDim_b_1b_apply x h1 0 q)

end Idealize.ShloMosaic.ValueIdx
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.RefLayers.lean ====
/-
  The reference's two graph-convolution layers read at an index.

  The reference computes, per layer, the edge-wise form: the projected features `h` gathered at the (wrapped) source
  rows, each row weighted by `dis (source) · dis (target)`, summed per target onto zeros, plus the self-loop term
  `h · dis²` and the bias.  Here each layer's result is read at `(n, d)` as that form over the stage functions of the
  reference's run: the aggregate is the general `weighEdges`, the self-loop factor and the bias are read through
  their broadcasts, the rectifier is a maximum with zero and the second projection is a plain sum.  Also: the degree
  scale is a nonnegative real at every node, the summed-onto arrays are zero, the wrapped target column is the wrap of
  the target column, and the second layer's recomputed scale and index columns are the first layer's.
-/
import proofs.«124116_j50491635531994_2_alg».proof.Proof.Gen.ReferenceIdeal.Read
import proofs.«124116_j50491635531994_2_alg».proof.Proof.LibGcnSelfLoop
import proofs.«124116_j50491635531994_2_alg».proof.Proof.LibHostRows
import proofs.«124116_j50491635531994_2_alg».proof.Proof.LibMatmul

noncomputable section

namespace Cert.ReferenceIdeal.Layers

open Cert.ReferenceIdeal Cert.ReferenceIdeal.Gen Cert.ReferenceIdeal.Read Cert.Gcn
open Idealize.ShloMosaic Idealize.ShloMosaic.ValueIdx Idealize.ShloMosaic.RowIndex

variable (x0 : (⟨S50000x128, .f32⟩ : BufTy).Contents (Elt Ideal)) (x1 : (⟨S2x800000, .i32⟩ : BufTy).Contents (Elt Ideal))
  (x2 : (⟨S128x256, .f32⟩ : BufTy).Contents (Elt Ideal)) (x3 : (⟨S256, .f32⟩ : BufTy).Contents (Elt Ideal))
  (x4 : (⟨S256x128, .f32⟩ : BufTy).Contents (Elt Ideal)) (x5 : (⟨S128, .f32⟩ : BufTy).Contents (Elt Ideal))

/-! ## The shared pieces: index columns and the degree scale -/

/-- The wrapped source column used by the row gathers is the one used by the scale's gathers. -/
theorem srcw_again : val_main_v31 (F := Ideal) x1 = val_main_v16 x1 := rfl
/-- The second layer recomputes the same wrapped columns and the same scale. -/
theorem srcw_layer2 : val_main_v61 (F := Ideal) x1 = val_main_v16 x1 := rfl
theorem srcw_layer2' : val_main_v76 (F := Ideal) x1 = val_main_v16 x1 := rfl
theorem dstw_layer2 : val_main_v68 (F := Ideal) x1 = val_main_v23 x1 := rfl
theorem dis_layer2 : val_main_v56 (F := Ideal) x1 = val_main_v11 x1 := rfl

/-- The wrapped target column is the wrap of the target column: a negative row number has 50000 added. -/
theorem dstw_isWrap : IsWrapOf 800000 50000#32 (val_main_v23 (F := Ideal) x1) (val_main_v3 x1) := by
  intro e
  rw [val_main_v23_apply, val_main_v20_apply, val_main_v22_apply, val_main_v19_apply, val_main_v21_apply,
    val_main_c_3_apply, val_main_c_4_apply]

/-- The arrays the aggregates are summed onto are zero. -/
theorem zeros256 (i : S50000x256.Idx) : val_main_v37 (F := Ideal) i = 0 := by
  rw [val_main_v37_apply, val_main_cst_7_apply]; exact Ideal.ofBits_zero_f32
theorem zeros128 (i : S50000x128.Idx) : val_main_v82 (F := Ideal) i = 0 := by
  rw [val_main_v82_apply, val_main_cst_17_apply]; exact Ideal.ofBits_zero_f32

/-- The degree scale `rsqrt (count + 1)` is a nonnegative real at every node. -/
theorem dis_nonneg : NonnegReal (val_main_v11 (F := Ideal) x1) := by
  refine rsqrt_count_nonnegReal 50000 800000 scatter_S50000_S800000x1_S800000_n_0_0_1_wf
    (val_main_v6 (F := Ideal)) (val_main_v9 (F := Ideal)) (val_main_v5 (F := Ideal)) (val_main_v7 x1) ?_ ?_ ?_
  · intro i; rw [val_main_v6_apply, val_main_cst_0_apply]; exact Ideal.ofBits_zero_f32
  · intro i; rw [val_main_v9_apply, val_main_cst_1_apply]; exact ofBits_one_f32
  · intro i; rw [val_main_v5_apply, val_main_cst_apply]; exact ofBits_one_f32

/-! ## Layer 1 -/

/-- The first layer's aggregate is the edge-wise aggregation of `h₁ = x · W₁`. -/
theorem agg1_eq : val_main_v39 (F := Ideal) x0 x1 x2
    = weighEdges 50000 256 800000 gather_S50000x256_S800000x1_S800000x256_1_0_n_n_0_1_1256_wf
        scatter_S50000x256_S800000x1_S800000x256_1_0_0_1_wf gather_S50000_S800000x1_S800000_n_0_n_n_0_1_1_wf
        bcast_S800000_S800000x1_0 bcast_S800000x1_S800000x256_0_1
        (val_main_v37 (F := Ideal)) (val_main_v4 x0 x2) (val_main_v11 x1) (val_main_v16 x1) (val_main_v23 x1) (val_main_v3 x1) := rfl

/-- The first projection at `(n, q)`: `x · W₁`, a plain sum. -/
theorem proj1_at (n : Fin 50000) (q : Fin 256) :
    val_main_v4 (F := Ideal) x0 x2 (ix2 n q) = ∑ k : Fin 128, x0 (ix2 n k) * x2 (ix2 k q) := by
  unfold val_main_v4
  simp only [Host.dotGeneral]
  rw [dotGeneral_ix2 _ rfl rfl rfl rfl rfl rfl]

/-- The first layer before the rectifier, at `(n, j)`. -/
theorem layer1_at (n : Fin 50000) (j : Fin 256) :
    val_main_v47 (F := Ideal) x0 x1 x2 x3 (ix2 n j)
      = (weighEdges 50000 256 800000 gather_S50000x256_S800000x1_S800000x256_1_0_n_n_0_1_1256_wf
            scatter_S50000x256_S800000x1_S800000x256_1_0_0_1_wf gather_S50000_S800000x1_S800000_n_0_n_n_0_1_1_wf
            bcast_S800000_S800000x1_0 bcast_S800000x1_S800000x256_0_1
            (val_main_v37 (F := Ideal)) (val_main_v4 x0 x2) (val_main_v11 x1) (val_main_v16 x1) (val_main_v23 x1) (val_main_v3 x1) (ix2 n j)
          + val_main_v4 x0 x2 (ix2 n j) * (val_main_v11 x1 (ix1 n) * val_main_v11 x1 (ix1 n)))
        + x3 (ix1 j) := by
  have h42 : val_main_v42 (F := Ideal) x1 (ix2 n j) = val_main_v40 x1 (ix1 n) :=
    broadcastInDim_column_apply (val_main_v40 (F := Ideal) x1) bcast_S50000_S50000x1_0 bcast_S50000x1_S50000x256_0_1 n j
  have h46 : val_main_v46 (F := Ideal) x3 (ix2 n j) = x3 (ix1 j) :=
    broadcastInDim_row_apply x3 bcast_S256_S1x256_1 bcast_S1x256_S50000x256_0_1 n j
  rw [val_main_v47_apply, val_main_v44_apply, val_main_v43_apply, h42, val_main_v40_apply, h46, agg1_eq]
  simp only [Ideal.addf_def, Ideal.mulf_def]

/-- The second projection at `(n, q)`: the rectified first layer times `W₂`, a plain sum. -/
theorem proj2_at (n : Fin 50000) (q : Fin 128) :
    val_main_v49 (F := Ideal) x0 x1 x2 x3 x4 (ix2 n q)
      = ∑ j : Fin 256, max (val_main_v47 x0 x1 x2 x3 (ix2 n j)) 0 * x4 (ix2 j q) := by
  unfold val_main_v49
  simp only [Host.dotGeneral]
  rw [dotGeneral_ix2 _ rfl rfl rfl rfl rfl rfl]
  refine Finset.sum_congr rfl fun j _ => ?_
  rw [val_main_v48_apply, val_main_call0_v0_apply, val_main_call0_cst_apply, Ideal.maximumf_def, Ideal.ofBits_def, Ideal.ofBits_zero_f32]

/-! ## Layer 2 -/

theorem agg2_eq : val_main_v84 (F := Ideal) x0 x1 x2 x3 x4
    = weighEdges 50000 128 800000 gather_S50000x128_S800000x1_S800000x128_1_0_n_n_0_1_1128_wf
        scatter_S50000x128_S800000x1_S800000x128_1_0_0_1_wf gather_S50000_S800000x1_S800000_n_0_n_n_0_1_1_wf
        bcast_S800000_S800000x1_0 bcast_S800000x1_S800000x128_0_1
        (val_main_v82 (F := Ideal)) (val_main_v49 x0 x1 x2 x3 x4) (val_main_v11 x1) (val_main_v16 x1) (val_main_v23 x1) (val_main_v3 x1) := rfl

/-- The reference's result at `(n, q)`. -/
theorem layer2_at (n : Fin 50000) (q : Fin 128) :
    val_main_v92 (F := Ideal) x0 x1 x2 x3 x4 x5 (ix2 n q)
      = (weighEdges 50000 128 800000 gather_S50000x128_S800000x1_S800000x128_1_0_n_n_0_1_1128_wf
            scatter_S50000x128_S800000x1_S800000x128_1_0_0_1_wf gather_S50000_S800000x1_S800000_n_0_n_n_0_1_1_wf
            bcast_S800000_S800000x1_0 bcast_S800000x1_S800000x128_0_1
            (val_main_v82 (F := Ideal)) (val_main_v49 x0 x1 x2 x3 x4) (val_main_v11 x1) (val_main_v16 x1) (val_main_v23 x1) (val_main_v3 x1) (ix2 n q)
          + val_main_v49 x0 x1 x2 x3 x4 (ix2 n q) * (val_main_v11 x1 (ix1 n) * val_main_v11 x1 (ix1 n)))
        + x5 (ix1 q) := by
  have h87 : val_main_v87 (F := Ideal) x1 (ix2 n q) = val_main_v85 x1 (ix1 n) :=
    broadcastInDim_column_apply (val_main_v85 (F := Ideal) x1) bcast_S50000_S50000x1_0 bcast_S50000x1_S50000x128_0_1 n q
  have h91 : val_main_v91 (F := Ideal) x5 (ix2 n q) = x5 (ix1 q) :=
    broadcastInDim_row_apply x5 bcast_S128_S1x128_1 bcast_S1x128_S50000x128_0_1 n q
  rw [val_main_v92_apply, val_main_v89_apply, val_main_v88_apply, h87, val_main_v85_apply, dis_layer2, h91, agg2_eq]
  simp only [Ideal.addf_def, Ideal.mulf_def]

end Cert.ReferenceIdeal.Layers

end
-- ==== Proof.LibColumns.lean ====
/-
  Column forms of a keepdims reduction, read at coordinates: a vector of `a` entries cast to the column `[a, 1]` reads
  its entry `i` at `(i, 0)`, and a column `[a, 1]` broadcast along `b` columns reads, at `(p, c)`, the column at
  `(p, 0)` — so a per-row value (a row maximum, a row sum) laid against every entry of its row is that row's value.
-/
import Idealize.ShloMosaic.Lib.ValueIdx
import Idealize.ShloMosaic.Lib.Pipeline.Value

namespace Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value cast to a column and broadcast along the row reads, at `(p, c)`, the value of row `p`. -/
theorem broadcastTo_column_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx
-- ==== Proof.RegionCommon.lean ====
/-
  Two facts every region's block-to-array argument uses: the zero offsets of a whole-buffer access, however they
  are spelt, and extensionality of a function on a rank-2 index type through its two coordinates.
-/
import proofs.«124116_j50491635531994_2_alg».proof.Proof.Gen.KernelIdeal.Frame
import Idealize.ShloMosaic.Lib.ValueIdx

set_option maxRecDepth 16384

noncomputable section

namespace Cert.KernelIdeal.Blocks

open Cert.KernelIdeal Cert.KernelIdeal.Gen Idealize.ShloMosaic Idealize.ShloMosaic.ValueIdx
open Idealize.ShloMosaic.TcCoe
open Idealize.ShloMosaic.Pipeline (Dat)

/-- The offsets (0, 0) are the zero function. -/
theorem hz : (![0, 0] : Fin 2 → Nat) = fun _ => 0 := funext fun a => by fin_cases a <;> rfl

/-- Two functions on a rank-2 index type agree when they agree at every pair of coordinates. -/
theorem ext_ix2 {a b : ℕ} {α : Type} (f g : (⟨2, ![a, b]⟩ : Shape).Idx → α)
    (h : ∀ (p : Fin a) (q : Fin b), f (ix2 p q) = g (ix2 p q)) : f = g :=
  funext fun j => by rw [eq_ix2 j]; exact h _ _

end Cert.KernelIdeal.Blocks

end
-- ==== Proof.Region0.lean ====
/-
  The first of the three regions, read as a function of the arrays it finds.

  Its body stores, at row p and column q of a block of 2000 rows, the product of row p of the [2000,128] operand
  block with column q of the [128,256] weight (a plain sum over the 128 contracted positions, the accumulator being
  zero), scaled by the per-node column's entry p.  The 25 grid points' blocks are rows 2000 t … 2000 t + 1999 of
  the [50000,128] operand and of the [50000,1] scale column, and the whole weight; they tile the [50000,256] output
  array.  So after the region the output array holds, at (n, q), the sum over k of operand (n, k) times
  weight (k, q), times the scale of row n.
-/
import proofs.«124116_j50491635531994_2_alg».proof.Proof.Gen.KernelIdeal.Frame
import proofs.«124116_j50491635531994_2_alg».proof.Proof.RegionCommon
import proofs.«124116_j50491635531994_2_alg».proof.Proof.LibColumns
import proofs.«124116_j50491635531994_2_alg».proof.Proof.LibMatmul
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.ValueIdx
open Idealize.ShloMosaic.TcCoe
open Idealize.ShloMosaic.Pipeline (Dat)

open scoped BigOperators

/-- The stored value at row p, column q of a block: row p of the left block against column q of the weight, scaled
    by the per-node column's entry p. -/
theorem pay0_apply (x0 : Vec Ideal S2000x128 .bf16) (x1 : Vec Ideal S128x256 .bf16) (x2 : Vec Ideal S2000x1 .f32)
    (p : Fin 2000) (q : Fin 256) :
    k0_pay1 x0 x1 x2 (ix2 p q)
      = (∑ k : Fin 128, x0 (ix2 p k) * x1 (ix2 k q)) * x2 (ix2 p (0 : Fin 1)) := by
  unfold k0_pay1
  rw [mulf_apply]
  simp only [shapeCast_self]
  rw [broadcastTo_a1_ab_apply]
  refine congrArg (· * x2 (ix2 p (0 : Fin 1))) ?_
  exact matmul_zero_ix2 (φ₁ := .bf16) (φ₂ := .bf16) dot_S2000x128_S128x256_S2000x256_1_0_0_1_n_n rfl rfl rfl rfl rfl rfl
    none x0 x1 p q

variable (V : (c : Dev nD) → (b : Ref sig .tc) → Buf (Elt Ideal) ((c : Thread nD τ).loc b)) (c : Dev nD)

/-- The index maps decided over the 25 grid points: the row-blocked windows sit at block (t, 0), the weight at
    block (0, 0). -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p of the operand's block at point t is row 2000 t + p of its array. -/
theorem iblk0_0_apply (t : Fin cfg0.N) (p : Fin 2000) (k : Fin 128) (n : Fin 50000) (hn : n.val = 2000 * t.val + p.val) :
    (iblk0 V c 0 t : Vec Ideal S2000x128 .bf16) (ix2 p k) = (V c main_v12 : S50000x128.Idx → EReal) (ix2 n k) := by
  obtain ⟨e0, e1, -⟩ := idx0 t
  unfold iblk0
  rw [View.read_apply]
  show V c main_v12 _ = V c main_v12 _
  congr 1
  funext a
  apply Fin.ext
  match a with
  | ⟨0, _⟩ => show win0_0.index t (0 : Fin 2) * 2000 + 1 * p.val = n.val; omega
  | ⟨1, _⟩ => show win0_0.index t (1 : Fin 2) * 128 + 1 * k.val = k.val; omega

/-- The weight's block is the whole weight at every point. -/
theorem iblk0_1_apply (t : Fin cfg0.N) (k : Fin 128) (q : Fin 256) :
    (iblk0 V c 1 t : Vec Ideal S128x256 .bf16) (ix2 k q) = (V c main_v13 : S128x256.Idx → EReal) (ix2 k q) := by
  obtain ⟨-, -, e0, e1, -⟩ := idx0 t
  unfold iblk0
  rw [View.read_apply]
  show V c main_v13 _ = V c main_v13 _
  congr 1
  funext a
  apply Fin.ext
  match a with
  | ⟨0, _⟩ => show win0_1.index t (0 : Fin 2) * 128 + 1 * k.val = k.val; omega
  | ⟨1, _⟩ => show win0_1.index t (1 : Fin 2) * 256 + 1 * q.val = q.val; omega

/-- Entry p of the scale column's block at point t is entry 2000 t + p of the column. -/
theorem iblk0_2_apply (t : Fin cfg0.N) (p : Fin 2000) (n : Fin 50000) (hn : n.val = 2000 * t.val + p.val) :
    (iblk0 V c 2 t : Vec Ideal S2000x1 .f32) (ix2 p (0 : Fin 1)) = (V c main_v11 : S50000x1.Idx → EReal) (ix2 n (0 : Fin 1)) := by
  obtain ⟨-, -, -, -, e0, e1, -⟩ := idx0 t
  unfold iblk0
  rw [View.read_apply]
  show V c main_v11 _ = V c main_v11 _
  congr 1
  funext a
  apply Fin.ext
  match a with
  | ⟨0, _⟩ => show win0_2.index t (0 : Fin 2) * 2000 + 1 * p.val = n.val; omega
  | ⟨1, _⟩ => show win0_2.index t (1 : Fin 2) * 1 + 1 * 0 = 0; omega

/-- A whole-array function read through the output window's block at point t. -/
theorem oblk0_apply (G : S50000x256.Idx → EReal) (t : Fin cfg0.N) (p : Fin 2000) (q : Fin 256) (n : Fin 50000)
    (hn : n.val = 2000 * t.val + p.val) :
    (((cfg0.win 3).blk t).view.read (Elt Ideal) G : Vec Ideal S2000x256 .f32) (ix2 p q) = G (ix2 n q) := by
  obtain ⟨-, -, -, -, -, -, e0, e1⟩ := idx0 t
  rw [View.read_apply]
  show G _ = G _
  congr 1
  funext a
  apply Fin.ext
  match a with
  | ⟨0, _⟩ => show win0_3.index t (0 : Fin 2) * 2000 + 1 * p.val = n.val; omega
  | ⟨1, _⟩ => show win0_3.index t (1 : Fin 2) * 256 + 1 * q.val = q.val; omega

/-- The region's output array as one function of the arrays it reads: operand times weight, each row scaled by
    the per-node column. -/
def out0 (a12 : S50000x128.Idx → EReal) (a13 : S128x256.Idx → EReal) (a11 : S50000x1.Idx → EReal) :
    S50000x256.Idx → EReal :=
  fun i => (∑ k : Fin 128, a12 (ix2 (i 0 : Fin 50000) k) * a13 (ix2 k (i 1 : Fin 256)))
    * a11 (ix2 (i 0 : Fin 50000) (0 : Fin 1))

/-- That function at (n, q). -/
theorem out0_apply (a12 : S50000x128.Idx → EReal) (a13 : S128x256.Idx → EReal) (a11 : S50000x1.Idx → EReal)
    (n : Fin 50000) (q : Fin 256) :
    out0 a12 a13 a11 (ix2 n q)
      = (∑ k : Fin 128, a12 (ix2 n k) * a13 (ix2 k q)) * a11 (ix2 n (0 : Fin 1)) := rfl

/-- What grid point t writes back is block t of that function. -/
theorem flushed0_eq (t : Fin cfg0.N) :
    (dat0 V c).flushed 3 t
      = ((cfg0.win 3).blk t).view.read (Elt Ideal) (out0 (V c main_v12) (V c main_v13) (V c main_v11)) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x256) hz, View.ld_unit_zero (S := S2000x1) hz]
  refine ext_ix2 (a := 2000) (b := 256) _ _ fun p q => ?_
  have hN : cfg0.N = 25 := N_0
  have ht : t.val < 25 := by have := t.isLt; omega
  obtain ⟨n, hn⟩ : ∃ n : Fin 50000, n.val = 2000 * t.val + p.val := ⟨⟨2000 * t.val + p.val, by have := p.isLt; omega⟩, rfl⟩
  show k0_pay1 (iblk0 V c 0 t) (iblk0 V c 1 t) (iblk0 V c 2 t) (ix2 p q) = _
  refine (pay0_apply _ _ _ p q).trans ?_
  rw [iblk0_2_apply V c t p n hn, oblk0_apply _ t p q n hn, out0_apply]
  refine congrArg (· * (V c main_v11 : S50000x1.Idx → EReal) (ix2 n (0 : Fin 1))) ?_
  refine Finset.sum_congr rfl fun k _ => ?_
  rw [iblk0_0_apply V c t p k n hn, iblk0_1_apply V c t k q]

/-- An index of the output array is in point t's block iff each coordinate is in the block's range on its axis. -/
theorem mem_oblk0 (t : Fin cfg0.N) (i : S50000x256.Idx) :
    i ∈ ((cfg0.win 3).blk t).view.set
      ↔ ∀ a : Fin 2, win0_3.index t a * S2000x256.size a ≤ (i a).val
          ∧ (i a).val < win0_3.index t a * S2000x256.size a + S2000x256.size a := by
  show i ∈ ((View.whole main_v14).slice (win0_3.rect t)).set ↔ _
  rw [View.set_slice_whole, Rect.mem_set_unit]
  exact Iff.rfl

/-- Row r of the output array lies in the block of grid point r / 2000: the 25 blocks of 2000 rows tile it. -/
theorem cover0 (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, -, -, e0, e1⟩ := idx0 t
  refine ⟨t, flush0_3 t, ?_⟩
  rw [mem_oblk0]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 256 ≤ (i 1).val ∧ (i 1).val < win0_3.index t (1 : Fin 2) * 256 + 256
    omega

/-- The output array after the region is that function of the arrays the region finds. -/
theorem arr0_eq :
    (dat0 V c).arrAt 3 cfg0.N = out0 (V c main_v12) (V c main_v13) (V c main_v11) :=
  (dat0 V c).arrAt_eq_of_cover 3 (out0 (V c main_v12) (V c main_v13) (V c main_v11))
    (fun t _ => flushed0_eq V c t) cover0

/-- The output array after the region, at (n, q). -/
theorem arr0 (n : Fin 50000) (q : Fin 256) :
    ((dat0 (F := Ideal) V c).arrAt 3 cfg0.N : S50000x256.Idx → EReal) (ix2 n q)
      = out0 (V c main_v12) (V c main_v13) (V c main_v11) (ix2 n q) :=
  congrFun (arr0_eq V c) (ix2 n q)

end Cert.KernelIdeal.Blocks

end
-- ==== Proof.Region1.lean ====
/-
  The middle one of the three regions, read as a function of the arrays it finds.

  Its body forms, at row p and position j of a block of 2000 rows, the per-node scale of row p times the sum of the
  two [2000,256] operand blocks there, plus the bias of position j, cut below at zero; it multiplies that
  [2000,256] block by the [256,128] weight (a plain sum over the 256 contracted positions, the accumulator being
  zero; the narrowing of the left factor before the product is the identity on the extended reals) and scales row
  p of the product by the per-node column's entry p again.  The 25 grid points' blocks are rows
  2000 t … 2000 t + 1999 of the two [50000,256] operands and of the [50000,1] scale column, and the whole bias
  row and weight; they tile the [50000,128] output array.
-/
import proofs.«124116_j50491635531994_2_alg».proof.Proof.Gen.KernelIdeal.Frame
import proofs.«124116_j50491635531994_2_alg».proof.Proof.RegionCommon
import proofs.«124116_j50491635531994_2_alg».proof.Proof.LibColumns
import proofs.«124116_j50491635531994_2_alg».proof.Proof.LibMatmul
import Idealize.ShloMosaic.Lib.Pipeline.Value
import Idealize.ShloMosaic.Lib.ValueLayout
import Idealize.ShloMosaic.Lib.ValueIdx

set_option maxRecDepth 16384

noncomputable section

namespace Cert.KernelIdeal.Blocks

open Cert.KernelIdeal Cert.KernelIdeal.Gen Idealize.ShloMosaic Idealize.ShloMosaic.ValueIdx
open Idealize.ShloMosaic.TcCoe
open Idealize.ShloMosaic.Pipeline (Dat)

open scoped BigOperators

/-- The stored value at row p, column q of a block. -/
theorem pay1_apply (x0 : Vec Ideal S2000x1 .f32) (x1 x2 : Vec Ideal S2000x256 .f32) (x3 : Vec Ideal S1x256 .f32)
    (x4 : Vec Ideal S256x128 .bf16) (x5 : Vec Ideal S2000x1 .f32) (p : Fin 2000) (q : Fin 128) :
    k1_pay1 x0 x1 x2 x3 x4 x5 (ix2 p q)
      = (∑ j : Fin 256, max (x0 (ix2 p (0 : Fin 1)) * (x1 (ix2 p j) + x2 (ix2 p j)) + x3 (ix2 (0 : Fin 1) j)) 0
            * x4 (ix2 j q)) * x5 (ix2 p (0 : Fin 1)) := by
  unfold k1_pay1
  rw [mulf_apply]
  simp only [shapeCast_self]
  rw [broadcastTo_a1_ab_apply]
  refine congrArg (· * x5 (ix2 p (0 : Fin 1))) ?_
  refine (matmul_zero_ix2 (φ₁ := .bf16) (φ₂ := .bf16) dot_S2000x256_S256x128_S2000x128_1_0_0_1_n_n rfl rfl rfl rfl rfl rfl
    none _ x4 p q).trans ?_
  refine Finset.sum_congr rfl fun j _ => ?_
  rw [truncf_apply, maximumf_apply, addf_apply, mulf_apply, addf_apply, broadcast_apply, broadcastTo_a1_ab_apply,
    broadcastTo_1b_ab_apply]
  rw [show (FloatOps.ofBits FTy.f32 0x00000000#32 : Ideal .f32) = 0 from Ideal.ofBits_zero_f32]

variable (V : (c : Dev nD) → (b : Ref sig .tc) → Buf (Elt Ideal) ((c : Thread nD τ).loc b)) (c : Dev nD)

/-- The index maps decided over the 25 grid points: the row-blocked windows sit at block (t, 0), the bias row and
    the weight at block (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of window 0's block at point t is row 2000 t + p of its array. -/
theorem iblk1_0_apply (t : Fin cfg1.N) (p : Fin 2000) (j : Fin 256) (n : Fin 50000) (hn : n.val = 2000 * t.val + p.val) :
    (iblk1 V c 0 t : Vec Ideal S2000x256 .f32) (ix2 p j) = (V c main_v24 : S50000x256.Idx → EReal) (ix2 n j) := by
  obtain ⟨e0, e1, -⟩ := idx1 t
  unfold iblk1
  rw [View.read_apply]
  show V c main_v24 _ = V c main_v24 _
  congr 1
  funext a
  apply Fin.ext
  match a with
  | ⟨0, _⟩ => show win1_0.index t (0 : Fin 2) * 2000 + 1 * p.val = n.val; omega
  | ⟨1, _⟩ => show win1_0.index t (1 : Fin 2) * 256 + 1 * j.val = j.val; omega

/-- The same for window 1. -/
theorem iblk1_1_apply (t : Fin cfg1.N) (p : Fin 2000) (j : Fin 256) (n : Fin 50000) (hn : n.val = 2000 * t.val + p.val) :
    (iblk1 V c 1 t : Vec Ideal S2000x256 .f32) (ix2 p j) = (V c main_v14 : S50000x256.Idx → EReal) (ix2 n j) := by
  obtain ⟨-, -, e0, e1, -⟩ := idx1 t
  unfold iblk1
  rw [View.read_apply]
  show V c main_v14 _ = V c main_v14 _
  congr 1
  funext a
  apply Fin.ext
  match a with
  | ⟨0, _⟩ => show win1_1.index t (0 : Fin 2) * 2000 + 1 * p.val = n.val; omega
  | ⟨1, _⟩ => show win1_1.index t (1 : Fin 2) * 256 + 1 * j.val = j.val; omega

/-- Entry p of the scale column's block at point t is entry 2000 t + p of the column. -/
theorem iblk1_2_apply (t : Fin cfg1.N) (p : Fin 2000) (n : Fin 50000) (hn : n.val = 2000 * t.val + p.val) :
    (iblk1 V c 2 t : Vec Ideal S2000x1 .f32) (ix2 p (0 : Fin 1)) = (V c main_v11 : S50000x1.Idx → EReal) (ix2 n (0 : Fin 1)) := by
  obtain ⟨-, -, -, -, e0, e1, -⟩ := idx1 t
  unfold iblk1
  rw [View.read_apply]
  show V c main_v11 _ = V c main_v11 _
  congr 1
  funext a
  apply Fin.ext
  match a with
  | ⟨0, _⟩ => show win1_2.index t (0 : Fin 2) * 2000 + 1 * p.val = n.val; omega
  | ⟨1, _⟩ => show win1_2.index t (1 : Fin 2) * 1 + 1 * 0 = 0; omega

/-- The bias row's block is the whole row at every point. -/
theorem iblk1_3_apply (t : Fin cfg1.N) (j : Fin 256) :
    (iblk1 V c 3 t : Vec Ideal S1x256 .f32) (ix2 (0 : Fin 1) j) = (V c main_v25 : S1x256.Idx → EReal) (ix2 (0 : Fin 1) j) := by
  obtain ⟨-, -, -, -, -, -, e0, e1, -⟩ := idx1 t
  unfold iblk1
  rw [View.read_apply]
  show V c main_v25 _ = V c main_v25 _
  congr 1
  funext a
  apply Fin.ext
  match a with
  | ⟨0, _⟩ => show win1_3.index t (0 : Fin 2) * 1 + 1 * 0 = 0; omega
  | ⟨1, _⟩ => show win1_3.index t (1 : Fin 2) * 256 + 1 * j.val = j.val; omega

/-- The weight's block is the whole weight at every point. -/
theorem iblk1_4_apply (t : Fin cfg1.N) (j : Fin 256) (q : Fin 128) :
    (iblk1 V c 4 t : Vec Ideal S256x128 .bf16) (ix2 j q) = (V c main_v26 : S256x128.Idx → EReal) (ix2 j q) := by
  obtain ⟨-, -, -, -, -, -, -, -, e0, e1, -⟩ := idx1 t
  unfold iblk1
  rw [View.read_apply]
  show V c main_v26 _ = V c main_v26 _
  congr 1
  funext a
  apply Fin.ext
  match a with
  | ⟨0, _⟩ => show win1_4.index t (0 : Fin 2) * 256 + 1 * j.val = j.val; omega
  | ⟨1, _⟩ => show win1_4.index t (1 : Fin 2) * 128 + 1 * q.val = q.val; omega

/-- A whole-array function read through the output window's block at point t. -/
theorem oblk1_apply (G : S50000x128.Idx → EReal) (t : Fin cfg1.N) (p : Fin 2000) (q : Fin 128) (n : Fin 50000)
    (hn : n.val = 2000 * t.val + p.val) :
    (((cfg1.win 5).blk t).view.read (Elt Ideal) G : Vec Ideal S2000x128 .f32) (ix2 p q) = G (ix2 n q) := by
  obtain ⟨-, -, -, -, -, -, -, -, -, -, e0, e1⟩ := idx1 t
  rw [View.read_apply]
  show G _ = G _
  congr 1
  funext a
  apply Fin.ext
  match a with
  | ⟨0, _⟩ => show win1_5.index t (0 : Fin 2) * 2000 + 1 * p.val = n.val; omega
  | ⟨1, _⟩ => show win1_5.index t (1 : Fin 2) * 128 + 1 * q.val = q.val; omega

/-- The region's output array as one function of the arrays it reads. -/
def out1 (a24 a14 : S50000x256.Idx → EReal) (a11 : S50000x1.Idx → EReal) (a25 : S1x256.Idx → EReal)
    (a26 : S256x128.Idx → EReal) : S50000x128.Idx → EReal :=
  fun i => (∑ j : Fin 256,
      max (a11 (ix2 (i 0 : Fin 50000) (0 : Fin 1)) * (a24 (ix2 (i 0 : Fin 50000) j) + a14 (ix2 (i 0 : Fin 50000) j))
            + a25 (ix2 (0 : Fin 1) j)) 0
        * a26 (ix2 j (i 1 : Fin 128)))
    * a11 (ix2 (i 0 : Fin 50000) (0 : Fin 1))

/-- That function at (n, q). -/
theorem out1_apply (a24 a14 : S50000x256.Idx → EReal) (a11 : S50000x1.Idx → EReal) (a25 : S1x256.Idx → EReal)
    (a26 : S256x128.Idx → EReal) (n : Fin 50000) (q : Fin 128) :
    out1 a24 a14 a11 a25 a26 (ix2 n q)
      = (∑ j : Fin 256,
            max (a11 (ix2 n (0 : Fin 1)) * (a24 (ix2 n j) + a14 (ix2 n j)) + a25 (ix2 (0 : Fin 1) j)) 0
              * a26 (ix2 j q))
          * a11 (ix2 n (0 : Fin 1)) := rfl

/-- What grid point t writes back is block t of that function. -/
theorem flushed1_eq (t : Fin cfg1.N) :
    (dat1 V c).flushed 5 t
      = ((cfg1.win 5).blk t).view.read (Elt Ideal)
          (out1 (V c main_v24) (V c main_v14) (V c main_v11) (V c main_v25) (V c main_v26)) := by
  show (cfg1.win 5).cut (grid1.coords t) ((dat1 V c).after 5 t) = _
  rw [after1_5]
  unfold out1_5
  rw [View.canon_unit_zero hz]
  simp only [View.ld_unit_zero (S := S2000x1) hz, View.ld_unit_zero (S := S2000x256) hz, View.ld_unit_zero (S := S1x256) hz,
    View.ld_unit_zero (S := S256x128) hz]
  refine ext_ix2 (a := 2000) (b := 128) _ _ fun p q => ?_
  have hN : cfg1.N = 25 := N_1
  have ht : t.val < 25 := by have := t.isLt; omega
  obtain ⟨n, hn⟩ : ∃ n : Fin 50000, n.val = 2000 * t.val + p.val := ⟨⟨2000 * t.val + p.val, by have := p.isLt; omega⟩, rfl⟩
  show k1_pay1 (iblk1 V c 2 t) (iblk1 V c 0 t) (iblk1 V c 1 t) (iblk1 V c 3 t) (iblk1 V c 4 t) (iblk1 V c 2 t) (ix2 p q) = _
  refine (pay1_apply _ _ _ _ _ _ p q).trans ?_
  rw [iblk1_2_apply V c t p n hn, oblk1_apply _ t p q n hn, out1_apply]
  refine congrArg (· * (V c main_v11 : S50000x1.Idx → EReal) (ix2 n (0 : Fin 1))) ?_
  refine Finset.sum_congr rfl fun j _ => ?_
  rw [iblk1_0_apply V c t p j n hn, iblk1_1_apply V c t p j n hn, iblk1_3_apply V c t j, iblk1_4_apply V c t j q]

/-- An index of the output array is in point t's block iff each coordinate is in the block's range on its axis. -/
theorem mem_oblk1 (t : Fin cfg1.N) (i : S50000x128.Idx) :
    i ∈ ((cfg1.win 5).blk t).view.set
      ↔ ∀ a : Fin 2, win1_5.index t a * S2000x128.size a ≤ (i a).val
          ∧ (i a).val < win1_5.index t a * S2000x128.size a + S2000x128.size a := by
  show i ∈ ((View.whole main_v27).slice (win1_5.rect t)).set ↔ _
  rw [View.set_slice_whole, Rect.mem_set_unit]
  exact Iff.rfl

/-- Row r of the output array lies in the block of grid point r / 2000: the 25 blocks of 2000 rows tile it. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨-, -, -, -, -, -, -, -, -, -, e0, e1⟩ := idx1 t
  refine ⟨t, flush1_5 t, ?_⟩
  rw [mem_oblk1]
  intro a
  match a with
  | ⟨0, _⟩ =>
    show win1_5.index t (0 : Fin 2) * 2000 ≤ (i 0).val ∧ (i 0).val < win1_5.index t (0 : Fin 2) * 2000 + 2000
    omega
  | ⟨1, _⟩ =>
    show win1_5.index t (1 : Fin 2) * 128 ≤ (i 1).val ∧ (i 1).val < win1_5.index t (1 : Fin 2) * 128 + 128
    omega

/-- The output array after the region is that function of the arrays the region finds. -/
theorem arr1_eq :
    (dat1 V c).arrAt 5 cfg1.N = out1 (V c main_v24) (V c main_v14) (V c main_v11) (V c main_v25) (V c main_v26) :=
  (dat1 V c).arrAt_eq_of_cover 5 (out1 (V c main_v24) (V c main_v14) (V c main_v11) (V c main_v25) (V c main_v26))
    (fun t _ => flushed1_eq V c t) cover1

/-- The output array after the region, at (n, q). -/
theorem arr1 (n : Fin 50000) (q : Fin 128) :
    ((dat1 (F := Ideal) V c).arrAt 5 cfg1.N : S50000x128.Idx → EReal) (ix2 n q)
      = out1 (V c main_v24) (V c main_v14) (V c main_v11) (V c main_v25) (V c main_v26) (ix2 n q) :=
  congrFun (arr1_eq V c) (ix2 n q)

end Cert.KernelIdeal.Blocks

end
-- ==== Proof.Region2.lean ====
/-
  The last of the three regions, read as a function of the arrays it finds.

  Its body stores, at row p and column q of a block of 2000 rows, the per-node scale of row p times the sum of the
  two [2000,128] operand blocks there, plus the bias of column q.  The 25 grid points' blocks are rows
  2000 t … 2000 t + 1999 of the [50000,128] arrays and of the [50000,1] scale column, and the whole bias row; they
  tile the output array.  So after the region the output array holds, at (n, q), the scale of row n times the sum
  of the two operand arrays at (n, q), plus the bias of column q.
-/
import proofs.«124116_j50491635531994_2_alg».proof.Proof.Gen.KernelIdeal.Frame
import proofs.«124116_j50491635531994_2_alg».proof.Proof.RegionCommon
import proofs.«124116_j50491635531994_2_alg».proof.Proof.LibColumns
import Idealize.ShloMosaic.Lib.Pipeline.Value
import Idealize.ShloMosaic.Lib.ValueLayout
import Idealize.ShloMosaic.Lib.ValueIdx

set_option maxRecDepth 16384

noncomputable section

namespace Cert.KernelIdeal.Blocks

open Cert.KernelIdeal Cert.KernelIdeal.Gen Idealize.ShloMosaic Idealize.ShloMosaic.ValueIdx
open Idealize.ShloMosaic.TcCoe
open Idealize.ShloMosaic.Pipeline (Dat)

/-- The last region's stored value at row p, column q of a block. -/
theorem pay2_apply (x0 : Vec Ideal S2000x1 .f32) (x1 x2 : Vec Ideal S2000x128 .f32) (x3 : Vec Ideal S1x128 .f32)
    (p : Fin 2000) (q : Fin 128) :
    k2_pay1 x0 x1 x2 x3 (ix2 p q)
      = x0 (ix2 p (0 : Fin 1)) * (x1 (ix2 p q) + x2 (ix2 p q)) + x3 (ix2 (0 : Fin 1) q) := by
  unfold k2_pay1
  rw [addf_apply, mulf_apply, addf_apply]
  simp only [shapeCast_self]
  rw [broadcastTo_a1_ab_apply, broadcastTo_1b_ab_apply]

variable (V : (c : Dev nD) → (b : Ref sig .tc) → Buf (Elt Ideal) ((c : Thread nD τ).loc b)) (c : Dev nD)

/-- The index maps of the last region, decided over its 25 grid points: the row-blocked windows sit at block
    (t, 0), the bias row at block (0, 0). -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row p of window 0's block at point t is row 2000 t + p of its array. -/
theorem iblk2_0_apply (t : Fin cfg2.N) (p : Fin 2000) (q : Fin 128) (n : Fin 50000) (hn : n.val = 2000 * t.val + p.val) :
    (iblk2 V c 0 t : Vec Ideal S2000x128 .f32) (ix2 p q) = (V c main_v37 : S50000x128.Idx → EReal) (ix2 n q) := by
  obtain ⟨e0, e1, -⟩ := idx2 t
  unfold iblk2
  rw [View.read_apply]
  show V c main_v37 _ = V c main_v37 _
  congr 1
  funext a
  apply Fin.ext
  match a with
  | ⟨0, _⟩ => show win2_0.index t (0 : Fin 2) * 2000 + 1 * p.val = n.val; omega
  | ⟨1, _⟩ => show win2_0.index t (1 : Fin 2) * 128 + 1 * q.val = q.val; omega

/-- The same for window 1. -/
theorem iblk2_1_apply (t : Fin cfg2.N) (p : Fin 2000) (q : Fin 128) (n : Fin 50000) (hn : n.val = 2000 * t.val + p.val) :
    (iblk2 V c 1 t : Vec Ideal S2000x128 .f32) (ix2 p q) = (V c main_v27 : S50000x128.Idx → EReal) (ix2 n q) := by
  obtain ⟨-, -, e0, e1, -⟩ := idx2 t
  unfold iblk2
  rw [View.read_apply]
  show V c main_v27 _ = V c main_v27 _
  congr 1
  funext a
  apply Fin.ext
  match a with
  | ⟨0, _⟩ => show win2_1.index t (0 : Fin 2) * 2000 + 1 * p.val = n.val; omega
  | ⟨1, _⟩ => show win2_1.index t (1 : Fin 2) * 128 + 1 * q.val = q.val; omega

/-- The same for the scale column. -/
theorem iblk2_2_apply (t : Fin cfg2.N) (p : Fin 2000) (n : Fin 50000) (hn : n.val = 2000 * t.val + p.val) :
    (iblk2 V c 2 t : Vec Ideal S2000x1 .f32) (ix2 p (0 : Fin 1)) = (V c main_v11 : S50000x1.Idx → EReal) (ix2 n (0 : Fin 1)) := by
  obtain ⟨-, -, -, -, e0, e1, -⟩ := idx2 t
  unfold iblk2
  rw [View.read_apply]
  show V c main_v11 _ = V c main_v11 _
  congr 1
  funext a
  apply Fin.ext
  match a with
  | ⟨0, _⟩ => show win2_2.index t (0 : Fin 2) * 2000 + 1 * p.val = n.val; omega
  | ⟨1, _⟩ => show win2_2.index t (1 : Fin 2) * 1 + 1 * 0 = 0; omega

/-- The bias row's block is the whole row at every point. -/
theorem iblk2_3_apply (t : Fin cfg2.N) (q : Fin 128) :
    (iblk2 V c 3 t : Vec Ideal S1x128 .f32) (ix2 (0 : Fin 1) q) = (V c main_v38 : S1x128.Idx → EReal) (ix2 (0 : Fin 1) q) := by
  obtain ⟨-, -, -, -, -, -, e0, e1, -⟩ := idx2 t
  unfold iblk2
  rw [View.read_apply]
  show V c main_v38 _ = V c main_v38 _
  congr 1
  funext a
  apply Fin.ext
  match a with
  | ⟨0, _⟩ => show win2_3.index t (0 : Fin 2) * 1 + 1 * 0 = 0; omega
  | ⟨1, _⟩ => show win2_3.index t (1 : Fin 2) * 128 + 1 * q.val = q.val; omega

/-- A whole-array function read through the output window's block at point t. -/
theorem oblk2_apply (G : S50000x128.Idx → EReal) (t : Fin cfg2.N) (p : Fin 2000) (q : Fin 128) (n : Fin 50000)
    (hn : n.val = 2000 * t.val + p.val) :
    (((cfg2.win 4).blk t).view.read (Elt Ideal) G : Vec Ideal S2000x128 .f32) (ix2 p q) = G (ix2 n q) := by
  obtain ⟨-, -, -, -, -, -, -, -, e0, e1⟩ := idx2 t
  rw [View.read_apply]
  show G _ = G _
  congr 1
  funext a
  apply Fin.ext
  match a with
  | ⟨0, _⟩ => show win2_4.index t (0 : Fin 2) * 2000 + 1 * p.val = n.val; omega
  | ⟨1, _⟩ => show win2_4.index t (1 : Fin 2) * 128 + 1 * q.val = q.val; omega

/-- The last region's output array as one function of the arrays it reads: row n of the sum of the two
    [50000,128] arrays scaled by the per-node column's entry n, plus the bias row. -/
def out2 (a37 a27 : S50000x128.Idx → EReal) (a11 : S50000x1.Idx → EReal) (a38 : S1x128.Idx → EReal) :
    S50000x128.Idx → EReal :=
  fun i => a11 (ix2 (i 0 : Fin 50000) (0 : Fin 1)) * (a37 i + a27 i) + a38 (ix2 (0 : Fin 1) (i 1 : Fin 128))

/-- That function at (n, q). -/
theorem out2_apply (a37 a27 : S50000x128.Idx → EReal) (a11 : S50000x1.Idx → EReal) (a38 : S1x128.Idx → EReal)
    (n : Fin 50000) (q : Fin 128) :
    out2 a37 a27 a11 a38 (ix2 n q)
      = a11 (ix2 n (0 : Fin 1)) * (a37 (ix2 n q) + a27 (ix2 n q)) + a38 (ix2 (0 : Fin 1) q) := rfl

/-- What grid point t writes back is block t of that function. -/
theorem flushed2_eq (t : Fin cfg2.N) :
    (dat2 V c).flushed 4 t
      = ((cfg2.win 4).blk t).view.read (Elt Ideal) (out2 (V c main_v37) (V c main_v27) (V c main_v11) (V c main_v38)) := by
  show (cfg2.win 4).cut (grid2.coords t) ((dat2 V c).after 4 t) = _
  rw [after2_4]
  unfold out2_4
  rw [View.canon_unit_zero hz]
  simp only [View.ld_unit_zero (S := S2000x128) hz, View.ld_unit_zero (S := S2000x1) hz, View.ld_unit_zero (S := S1x128) hz]
  refine ext_ix2 (a := 2000) (b := 128) _ _ fun p q => ?_
  have hN : cfg2.N = 25 := N_2
  have ht : t.val < 25 := by have := t.isLt; omega
  obtain ⟨n, hn⟩ : ∃ n : Fin 50000, n.val = 2000 * t.val + p.val := ⟨⟨2000 * t.val + p.val, by have := p.isLt; omega⟩, rfl⟩
  show k2_pay1 (iblk2 V c 2 t) (iblk2 V c 0 t) (iblk2 V c 1 t) (iblk2 V c 3 t) (ix2 p q) = _
  refine (pay2_apply _ _ _ _ p q).trans ?_
  rw [iblk2_2_apply V c t p n hn, iblk2_0_apply V c t p q n hn, iblk2_1_apply V c t p q n hn, iblk2_3_apply V c t q,
    oblk2_apply _ t p q n hn]
  rfl

/-- An index of the output array is in point t's block iff each coordinate is in the block's range on its axis. -/
theorem mem_oblk2 (t : Fin cfg2.N) (i : S50000x128.Idx) :
    i ∈ ((cfg2.win 4).blk t).view.set
      ↔ ∀ a : Fin 2, win2_4.index t a * S2000x128.size a ≤ (i a).val
          ∧ (i a).val < win2_4.index t a * S2000x128.size a + S2000x128.size a := by
  show i ∈ ((View.whole main_v39).slice (win2_4.rect t)).set ↔ _
  rw [View.set_slice_whole, Rect.mem_set_unit]
  exact Iff.rfl

/-- Row r of the output array lies in the block of grid point r / 2000: the 25 blocks of 2000 rows tile it. -/
theorem cover2 (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨-, -, -, -, -, -, -, -, e0, e1⟩ := idx2 t
  refine ⟨t, flush2_4 t, ?_⟩
  rw [mem_oblk2]
  intro a
  match a with
  | ⟨0, _⟩ =>
    show win2_4.index t (0 : Fin 2) * 2000 ≤ (i 0).val ∧ (i 0).val < win2_4.index t (0 : Fin 2) * 2000 + 2000
    omega
  | ⟨1, _⟩ =>
    show win2_4.index t (1 : Fin 2) * 128 ≤ (i 1).val ∧ (i 1).val < win2_4.index t (1 : Fin 2) * 128 + 128
    omega

/-- The output array after the last region is that function of the arrays the region reads. -/
theorem arr2_eq :
    (dat2 V c).arrAt 4 cfg2.N = out2 (V c main_v37) (V c main_v27) (V c main_v11) (V c main_v38) :=
  (dat2 V c).arrAt_eq_of_cover 4 (out2 (V c main_v37) (V c main_v27) (V c main_v11) (V c main_v38))
    (fun t _ => flushed2_eq V c t) cover2

/-- The output array after the last region, at (n, q). -/
theorem arr2 (n : Fin 50000) (q : Fin 128) :
    ((dat2 (F := Ideal) V c).arrAt 4 cfg2.N : S50000x128.Idx → EReal) (ix2 n q)
      = out2 (V c main_v37) (V c main_v27) (V c main_v11) (V c main_v38) (ix2 n q) :=
  congrFun (arr2_eq V c) (ix2 n q)

end Cert.KernelIdeal.Blocks

end
-- ==== Proof.KernelValue.lean ====
/-
  The idealized kernel's result is the reference's.

  Region by region: region 0 leaves `hs₁ = (x · W₁) · dis` (row-wise); the host aggregates `hs₁` gathered at the source
  rows per target; region 1 computes `relu (dis · (agg₁ + hs₁) + b₁)`, which at every entry is the reference's first
  layer — the node-wise form of a graph-convolution layer against the edge-wise one, equal because the degree scale
  `dis n = rsqrt (count + 1)` is a nonnegative real and so distributes over the aggregate plus the self-loop term —,
  multiplies by `W₂` and scales by `dis` again; the host aggregates; region 2 combines.  Each step is read at an index
  from the region's whole-array value and the boundary contents, and meets the reference's stage read at the same
  index.
-/
import proofs.«124116_j50491635531994_2_alg».proof.Proof.KernelStages
import proofs.«124116_j50491635531994_2_alg».proof.Proof.RefLayers
import proofs.«124116_j50491635531994_2_alg».proof.Proof.LibColumns
import proofs.«124116_j50491635531994_2_alg».proof.Proof.LibMatmul
import proofs.«124116_j50491635531994_2_alg».proof.Proof.Region0
import proofs.«124116_j50491635531994_2_alg».proof.Proof.Region1
import proofs.«124116_j50491635531994_2_alg».proof.Proof.Region2
import Idealize.ShloMosaic.Lib.ValueLayout

set_option maxRecDepth 16384

noncomputable section

namespace Cert.KernelIdeal.Net

open Cert.KernelIdeal Cert.KernelIdeal.Gen Cert.KernelIdeal.Stages Cert.Gcn
open Cert.ReferenceIdeal.Read Cert.ReferenceIdeal.Layers
open Idealize.ShloMosaic Idealize.ShloMosaic.TcCoe Idealize.SL.Sem
open Idealize.ShloMosaic.ValueIdx Idealize.ShloMosaic.RowIndex

variable (m : (ℓ : Loc nD τ sig) → Buf (Elt Ideal) ℓ) (ρ : Dev nD → PrngReg) (c : Dev nD)

set_option quotPrecheck false in
local notation "X0" => (m ((c : Thread nD τ).loc main_arg0))
set_option quotPrecheck false in
local notation "X1" => (m ((c : Thread nD τ).loc main_arg1))
set_option quotPrecheck false in
local notation "X2" => (m ((c : Thread nD τ).loc main_arg2))
set_option quotPrecheck false in
local notation "X3" => (m ((c : Thread nD τ).loc main_arg3))
set_option quotPrecheck false in
local notation "X4" => (m ((c : Thread nD τ).loc main_arg4))
set_option quotPrecheck false in
local notation "X5" => (m ((c : Thread nD τ).loc main_arg5))

/-! ## The buffers the layers pass on, as arrays of extended reals -/

/-- The scaled first projection (region 0's output). -/
abbrev hs1 : S50000x256.Idx → EReal := W2 m ρ c (Proc.devRef .tc main_v14)
/-- The first aggregate. -/
abbrev agg1 : S50000x256.Idx → EReal := W3 m ρ c (Proc.devRef .tc main_v24)
/-- The scaled second projection (region 1's output). -/
abbrev hs2 : S50000x128.Idx → EReal := W4 m ρ c (Proc.devRef .tc main_v27)
/-- The second aggregate. -/
abbrev agg2 : S50000x128.Idx → EReal := W5 m ρ c (Proc.devRef .tc main_v37)
/-- The degree scale. -/
abbrev dis : Cert.ReferenceIdeal.S50000.Idx → EReal := val_main_v11 (F := Ideal) X1
/-- The biases. -/
abbrev bias1 : Cert.ReferenceIdeal.S256.Idx → EReal := X3
abbrev bias2 : Cert.ReferenceIdeal.S128.Idx → EReal := X5

/-- The degree scale's column, as every region finds it. -/
theorem col1 : @Eq (S50000x1.Idx → EReal) (V1 m ρ c main_v11) (shapeCast S50000x1 (dis m c) shapeCasts_S50000_S50000x1) :=
  w1_v11 m ρ c
theorem col3 : @Eq (S50000x1.Idx → EReal) (V3 m ρ c main_v11) (shapeCast S50000x1 (dis m c) shapeCasts_S50000_S50000x1) :=
  (v11_everywhere m ρ c).2.trans (w1_v11 m ρ c)
theorem col5 : @Eq (S50000x1.Idx → EReal) (V5 m ρ c main_v11) (shapeCast S50000x1 (dis m c) shapeCasts_S50000_S50000x1) :=
  (v11_everywhere m ρ c).1.trans (w1_v11 m ρ c)

/-! ## Layer 1 -/

/-- Region 0 leaves the scaled first projection: `(x · W₁) (n, q) · dis n`. -/
theorem hs1_at (n : Fin 50000) (q : Fin 256) :
    hs1 m ρ c (ix2 n q) = val_main_v4 (F := Ideal) X0 X2 (ix2 n q) * dis m c (ix1 n) := by
  have e : hs1 m ρ c = Blocks.out0 (V1 m ρ c main_v12) (V1 m ρ c main_v13) (V1 m ρ c main_v11) :=
    (w2_v14 m ρ c).trans (Blocks.arr0_eq (V1 m ρ) c)
  have e12 : @Eq (S50000x128.Idx → EReal) (V1 m ρ c main_v12) X0 := funext (w1_v12 m ρ c)
  have e13 : @Eq (S128x256.Idx → EReal) (V1 m ρ c main_v13) X2 := funext (w1_v13 m ρ c)
  rw [e, e12, e13, col1, Blocks.out0_apply, shapeCast_a_a1_apply, proj1_at]

/-- What region 1 rectifies, at `(n, j)`, is the reference's first layer there: the node-wise form of the layer is the
    edge-wise one, the degree scale being a nonnegative real. -/
theorem pre1_at (n : Fin 50000) (j : Fin 256) :
    dis m c (ix1 n) * (agg1 m ρ c (ix2 n j) + hs1 m ρ c (ix2 n j)) + bias1 m c (ix1 j)
      = val_main_v47 (F := Ideal) X0 X1 X2 X3 (ix2 n j) := by
  rw [layer1_at]
  exact layer_at 50000 256 800000 (by norm_num) _ _ _ Cert.ReferenceIdeal.Gen.bcast_S50000_S50000x1_0
    Cert.ReferenceIdeal.Gen.bcast_S50000x1_S50000x256_0_1 _ _ 50000#32
    (val_main_v37 (F := Ideal)) (val_main_v37 (F := Ideal)) (val_main_v4 (F := Ideal) X0 X2)
    (hs1 m ρ c) (agg1 m ρ c)
    (dis m c) (val_main_v16 (F := Ideal) X1) (val_main_v23 (F := Ideal) X1) (val_main_v3 (F := Ideal) X1)
    zeros256 zeros256 (dis_nonneg X1) (dstw_isWrap X1) (hs1_at m ρ c) (w3_v24 m ρ c) _ n j

/-! ## Layer 2 -/

/-- Region 1 leaves the scaled second projection: `(relu (layer 1) · W₂) (n, q) · dis n`. -/
theorem hs2_at (n : Fin 50000) (q : Fin 128) :
    hs2 m ρ c (ix2 n q) = val_main_v49 (F := Ideal) X0 X1 X2 X3 X4 (ix2 n q) * dis m c (ix1 n) := by
  have e : hs2 m ρ c = Blocks.out1 (V3 m ρ c main_v24) (V3 m ρ c main_v14) (V3 m ρ c main_v11) (V3 m ρ c main_v25) (V3 m ρ c main_v26) :=
    (w4_v27 m ρ c).trans (Blocks.arr1_eq (V3 m ρ) c)
  have e24 : @Eq (S50000x256.Idx → EReal) (V3 m ρ c main_v24) (agg1 m ρ c) := rfl
  have e14 : @Eq (S50000x256.Idx → EReal) (V3 m ρ c main_v14) (hs1 m ρ c) := w3_v14 m ρ c
  have e25 : @Eq (S1x256.Idx → EReal) (V3 m ρ c main_v25) (shapeCast S1x256 (bias1 m c) shapeCasts_S256_S1x256) := w3_v25 m ρ c
  have e26 : @Eq (S256x128.Idx → EReal) (V3 m ρ c main_v26) X4 := funext (w3_v26 m ρ c)
  rw [e, e24, e14, col3, e25, e26, Blocks.out1_apply, shapeCast_a_a1_apply, proj2_at]
  refine congrArg (fun S : EReal => S * dis m c (ix1 n)) (Finset.sum_congr rfl fun j _ => ?_)
  rw [shapeCast_a_1a_apply, pre1_at m ρ c n j]

/-- The kernel's result at `(n, q)` is the reference's. -/
theorem out_at (n : Fin 50000) (q : Fin 128) :
    (W6 m ρ c (Proc.devRef .tc main_v39) : S50000x128.Idx → EReal) (ix2 n q)
      = val_main_v92 (F := Ideal) X0 X1 X2 X3 X4 X5 (ix2 n q) := by
  have e : @Eq (S50000x128.Idx → EReal) (W6 m ρ c (Proc.devRef .tc main_v39))
      (Blocks.out2 (V5 m ρ c main_v37) (V5 m ρ c main_v27) (V5 m ρ c main_v11) (V5 m ρ c main_v38)) :=
    (w6_v39 m ρ c).trans (Blocks.arr2_eq (V5 m ρ) c)
  have e37 : @Eq (S50000x128.Idx → EReal) (V5 m ρ c main_v37) (agg2 m ρ c) := rfl
  have e27 : @Eq (S50000x128.Idx → EReal) (V5 m ρ c main_v27) (hs2 m ρ c) := w5_v27 m ρ c
  have e38 : @Eq (S1x128.Idx → EReal) (V5 m ρ c main_v38) (shapeCast S1x128 (bias2 m c) shapeCasts_S128_S1x128) := w5_v38 m ρ c
  rw [e, e37, e27, col5, e38, Blocks.out2_apply, shapeCast_a_a1_apply, shapeCast_a_1a_apply, layer2_at]
  exact layer_at 50000 128 800000 (by norm_num) _ _ _ Cert.ReferenceIdeal.Gen.bcast_S50000_S50000x1_0
    Cert.ReferenceIdeal.Gen.bcast_S50000x1_S50000x128_0_1 _ _ 50000#32
    (val_main_v82 (F := Ideal)) (val_main_v82 (F := Ideal)) (val_main_v49 (F := Ideal) X0 X1 X2 X3 X4)
    (hs2 m ρ c) (agg2 m ρ c)
    (dis m c) (val_main_v16 (F := Ideal) X1) (val_main_v23 (F := Ideal) X1) (val_main_v3 (F := Ideal) X1)
    zeros128 zeros128 (dis_nonneg X1) (dstw_isWrap X1) (hs2_at m ρ c) (w5_v37 m ρ c) _ n q

/-- The kernel's result array is the reference's stage function of the same arguments. -/
theorem result_eq : @Eq (S50000x128.Idx → EReal) (W6 m ρ c (Proc.devRef .tc main_v39))
    (val_main_v92 (F := Ideal) X0 X1 X2 X3 X4 X5) := by
  funext i
  obtain ⟨n, q, rfl⟩ : ∃ (n : Fin 50000) (q : Fin 128), i = ix2 n q := ⟨i 0, i 1, eq_ix2 i⟩
  exact out_at m ρ c n q

end Cert.KernelIdeal.Net

end
-- ==== Proof.lean ====
/-
  The certificate of a two-layer graph convolution: a Pallas kernel in three regions against its jnp reference.

  Both programs compute, per layer, `D^(-1/2) (A + I) D^(-1/2) (x W) + b` over an edge list, with `D` the in-degree plus
  one.  The reference weighs every gathered row by `dis (source) · dis (target)` and adds the self-loop term
  `h · dis²`; the kernel scales the projected rows by `dis` inside its first dense region, aggregates the scaled rows
  on the host, and scales the aggregate plus the self-loop row by `dis` again inside the next region.  At the exact
  instance the two arrangements agree at every entry because `dis n = rsqrt (count n + 1)` is a nonnegative real (the
  count is a natural number), so it distributes over the sums whatever the entries are; the conversions to a
  narrower float format are the identity there and a matrix unit's product into a zero accumulator is the plain sum.

  The frames of the two kernel programs are the generated frame certificates; the reference's frame is its generated
  run with the result dropped; the idealization rewrote nothing.  For the value claim the kernel's run is stated with
  its result buffer named at the last segment boundary's contents, each region's output array is read as one function
  of the arrays the region finds, the host stretches between regions are read through the fold of boundary contents,
  and the result meets the reference's stage function of the same arguments index by index.
-/
import proofs.«124116_j50491635531994_2_alg».proof.Defs
import proofs.«124116_j50491635531994_2_alg».proof.Proof.Gen.Kernel
import proofs.«124116_j50491635531994_2_alg».proof.Proof.Gen.Kernel.Skeleton
import proofs.«124116_j50491635531994_2_alg».proof.Proof.Gen.Kernel.Launch
import proofs.«124116_j50491635531994_2_alg».proof.Proof.Gen.Kernel.Points
import proofs.«124116_j50491635531994_2_alg».proof.Proof.Gen.Kernel.Frame
import proofs.«124116_j50491635531994_2_alg».proof.Proof.Gen.KernelIdeal
import proofs.«124116_j50491635531994_2_alg».proof.Proof.Gen.KernelIdeal.Skeleton
import proofs.«124116_j50491635531994_2_alg».proof.Proof.Gen.KernelIdeal.Launch
import proofs.«124116_j50491635531994_2_alg».proof.Proof.Gen.KernelIdeal.Points
import proofs.«124116_j50491635531994_2_alg».proof.Proof.Gen.KernelIdeal.Frame
import proofs.«124116_j50491635531994_2_alg».proof.Proof.Gen.ReferenceIdeal
import proofs.«124116_j50491635531994_2_alg».proof.Proof.Gen.Pre_finite_inputs
import proofs.«124116_j50491635531994_2_alg».proof.Proof.Gen.ReferenceIdeal.Run
import proofs.«124116_j50491635531994_2_alg».proof.Proof.Gen.ReferenceIdeal.Read
import proofs.«124116_j50491635531994_2_alg».proof.Proof.KernelRun
import proofs.«124116_j50491635531994_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the generated frame certificate. -/
theorem frame_k : Cert.frame_Kernel := fun m ρ _ => Cert.Kernel.Gen.frame m ρ

/-- The same for the idealized kernel. -/
theorem frame_ki : Cert.frame_KernelIdeal := fun m ρ _ => Cert.KernelIdeal.Gen.frame m ρ

/-- The reference runs and leaves its arguments unchanged: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result array: the kernel's at the last
    boundary's contents of its result buffer, which is the reference's stage function of the arguments. -/
theorem algebraic : Cert.algebraic_KernelIdeal_ReferenceIdeal := by
  intro m ρ m' ρ' _ hagree
  refine ⟨fun c => Cert.KernelIdeal.Gen.W6 m ρ c (Proc.devRef .tc Cert.KernelIdeal.main_v39),
    Cert.KernelIdeal.Named.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v92_eq, (hagree c).1, (hagree c).2.1, (hagree c).2.2.1, (hagree c).2.2.2.1,
    (hagree c).2.2.2.2.1, (hagree c).2.2.2.2.2]
  exact (Cert.KernelIdeal.Net.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
